-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v24) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x1x1 : Shape := ⟨3, ![250000, 1, 1]⟩
abbrev S250000x3x1 : Shape := ⟨3, ![250000, 3, 1]⟩
abbrev S250000x5x1 : Shape := ⟨3, ![250000, 5, 1]⟩
abbrev S250000x7x1 : Shape := ⟨3, ![250000, 7, 1]⟩
abbrev S250000x256 : Shape := ⟨2, ![250000, 256]⟩
abbrev S250000x192 : Shape := ⟨2, ![250000, 192]⟩
abbrev S250000x128 : Shape := ⟨2, ![250000, 128]⟩
abbrev S250000x64 : Shape := ⟨2, ![250000, 64]⟩
abbrev S10000x1x256 : Shape := ⟨3, ![10000, 1, 256]⟩
abbrev S250000 : Shape := ⟨1, ![250000]⟩
abbrev S_ : Shape := ⟨0, ![]⟩

class Facts : Prop where
  bcast_S_S250000x1x1 : S_.BroadcastsInDim S250000x1x1 (![] : Fin 0 → Fin S250000x1x1.rank)
  reducesTo_S250000x1x1_S_d0_1_2 : S250000x1x1.ReducesTo [0, 1, 2] S_
  h_S_ : 0 < S_.numel
  bcast_S_S250000x3x1 : S_.BroadcastsInDim S250000x3x1 (![] : Fin 0 → Fin S250000x3x1.rank)
  reducesTo_S250000x3x1_S_d0_1_2 : S250000x3x1.ReducesTo [0, 1, 2] S_
  bcast_S_S250000x5x1 : S_.BroadcastsInDim S250000x5x1 (![] : Fin 0 → Fin S250000x5x1.rank)
  reducesTo_S250000x5x1_S_d0_1_2 : S250000x5x1.ReducesTo [0, 1, 2] S_
  bcast_S_S250000x7x1 : S_.BroadcastsInDim S250000x7x1 (![] : Fin 0 → Fin S250000x7x1.rank)
  reducesTo_S250000x7x1_S_d0_1_2 : S250000x7x1.ReducesTo [0, 1, 2] S_
  bcast_S_S250000x256 : S_.BroadcastsInDim S250000x256 (![] : Fin 0 → Fin S250000x256.rank)
  reducesTo_S250000x256_S_d0_1 : S250000x256.ReducesTo [0, 1] S_
  bcast_S_S250000x192 : S_.BroadcastsInDim S250000x192 (![] : Fin 0 → Fin S250000x192.rank)
  reducesTo_S250000x192_S_d0_1 : S250000x192.ReducesTo [0, 1] S_
  bcast_S_S250000x128 : S_.BroadcastsInDim S250000x128 (![] : Fin 0 → Fin S250000x128.rank)
  reducesTo_S250000x128_S_d0_1 : S250000x128.ReducesTo [0, 1] S_
  bcast_S_S250000x64 : S_.BroadcastsInDim S250000x64 (![] : Fin 0 → Fin S250000x64.rank)
  reducesTo_S250000x64_S_d0_1 : S250000x64.ReducesTo [0, 1] S_
  bcast_S_S10000x1x256 : S_.BroadcastsInDim S10000x1x256 (![] : Fin 0 → Fin S10000x1x256.rank)
  reducesTo_S10000x1x256_S_d0_1_2 : S10000x1x256.ReducesTo [0, 1, 2] S_

variable [Facts]

def fn_part2 {F : FTy → Type} [FloatOps F] (main_arg7 : FVec F S250000x64 .f32) (main_arg8 : FVec F S10000x1x256 .f32) (main_v33 : IVec S_ 1) : IVec S_ 1 :=
  let main_v34 : FVec F S250000x64 .f32 := Host.absf main_arg7
  let main_cst_12 : FVec F S_ .f32 := constant S_ .f32 0x7F800000#32
  let main_v35 : FVec F S250000x64 .f32 := broadcastInDim S250000x64 ![] bcast_S_S250000x64 main_cst_12
  let main_v36 : IVec S250000x64 1 := cmpf .olt main_v34 main_v35
  let main_c_13 : IVec S_ 1 := constantI S_ 1 1#1
  let main_v37 : IVec S_ 1 := (fun x v => Host.reduce IntOp.andi x v reducesTo_S250000x64_S_d0_1 h_S_) main_v36 main_c_13
  let main_v38 : IVec S_ 1 := andi main_v33 main_v37
  let main_v39 : FVec F S10000x1x256 .f32 := Host.absf main_arg8
  let main_cst_14 : FVec F S_ .f32 := constant S_ .f32 0x7F800000#32
  let main_v40 : FVec F S10000x1x256 .f32 := broadcastInDim S10000x1x256 ![] bcast_S_S10000x1x256 main_cst_14
  let main_v41 : IVec S10000x1x256 1 := cmpf .olt main_v39 main_v40
  let main_c_15 : IVec S_ 1 := constantI S_ 1 1#1
  let main_v42 : IVec S_ 1 := (fun x v => Host.reduce IntOp.andi x v reducesTo_S10000x1x256_S_d0_1_2 h_S_) main_v41 main_c_15
  let main_v43 : IVec S_ 1 := andi main_v38 main_v42
  main_v43

def fn_part1 {F : FTy → Type} [FloatOps F] (main_arg4 : FVec F S250000x256 .f32) (main_arg5 : FVec F S250000x192 .f32) (main_arg6 : FVec F S250000x128 .f32) (main_arg7 : FVec F S250000x64 .f32) (main_arg8 : FVec F S10000x1x256 .f32) (main_v13 : IVec S_ 1) (main_v16 : IVec S250000x7x1 1) : IVec S_ 1 :=
  let main_c_5 : IVec S_ 1 := constantI S_ 1 1#1
  let main_v17 : IVec S_ 1 := (fun x v => Host.reduce IntOp.andi x v reducesTo_S250000x7x1_S_d0_1_2 h_S_) main_v16 main_c_5
  let main_v18 : IVec S_ 1 := andi main_v13 main_v17
  let main_v19 : FVec F S250000x256 .f32 := Host.absf main_arg4
  let main_cst_6 : FVec F S_ .f32 := constant S_ .f32 0x7F800000#32
  let main_v20 : FVec F S250000x256 .f32 := broadcastInDim S250000x256 ![] bcast_S_S250000x256 main_cst_6
  let main_v21 : IVec S250000x256 1 := cmpf .olt main_v19 main_v20
  let main_c_7 : IVec S_ 1 := constantI S_ 1 1#1
  let main_v22 : IVec S_ 1 := (fun x v => Host.reduce IntOp.andi x v reducesTo_S250000x256_S_d0_1 h_S_) main_v21 main_c_7
  let main_v23 : IVec S_ 1 := andi main_v18 main_v22
  let main_v24 : FVec F S250000x192 .f32 := Host.absf main_arg5
  let main_cst_8 : FVec F S_ .f32 := constant S_ .f32 0x7F800000#32
  let main_v25 : FVec F S250000x192 .f32 := broadcastInDim S250000x192 ![] bcast_S_S250000x192 main_cst_8
  let main_v26 : IVec S250000x192 1 := cmpf .olt main_v24 main_v25
  let main_c_9 : IVec S_ 1 := constantI S_ 1 1#1
  let main_v27 : IVec S_ 1 := (fun x v => Host.reduce IntOp.andi x v reducesTo_S250000x192_S_d0_1 h_S_) main_v26 main_c_9
  let main_v28 : IVec S_ 1 := andi main_v23 main_v27
  let main_v29 : FVec F S250000x128 .f32 := Host.absf main_arg6
  let main_cst_10 : FVec F S_ .f32 := constant S_ .f32 0x7F800000#32
  let main_v30 : FVec F S250000x128 .f32 := broadcastInDim S250000x128 ![] bcast_S_S250000x128 main_cst_10
  let main_v31 : IVec S250000x128 1 := cmpf .olt main_v29 main_v30
  let main_c_11 : IVec S_ 1 := constantI S_ 1 1#1
  let main_v32 : IVec S_ 1 := (fun x v => Host.reduce IntOp.andi x v reducesTo_S250000x128_S_d0_1 h_S_) main_v31 main_c_11
  let main_v33 : IVec S_ 1 := andi main_v28 main_v32
  fn_part2 (F := F) main_arg7 main_arg8 main_v33

def fn {F : FTy → Type} [FloatOps F] (main_arg0 : FVec F S250000x1x1 .f32) (main_arg1 : FVec F S250000x3x1 .f32) (main_arg2 : FVec F S250000x5x1 .f32) (main_arg3 : FVec F S250000x7x1 .f32) (main_arg4 : FVec F S250000x256 .f32) (main_arg5 : FVec F S250000x192 .f32) (main_arg6 : FVec F S250000x128 .f32) (main_arg7 : FVec F S250000x64 .f32) (main_arg8 : FVec F S10000x1x256 .f32) (main_arg9 : IVec S250000 32) (main_arg10 : IVec S250000 32) : IVec S_ 1 :=
  let main_v0 : FVec F S250000x1x1 .f32 := Host.absf main_arg0
  let main_cst : FVec F S_ .f32 := constant S_ .f32 0x7F800000#32
  let main_v1 : FVec F S250000x1x1 .f32 := broadcastInDim S250000x1x1 ![] bcast_S_S250000x1x1 main_cst
  let main_v2 : IVec S250000x1x1 1 := cmpf .olt main_v0 main_v1
  let main_c : IVec S_ 1 := constantI S_ 1 1#1
  let main_v3 : IVec S_ 1 := (fun x v => Host.reduce IntOp.andi x v reducesTo_S250000x1x1_S_d0_1_2 h_S_) main_v2 main_c
  let main_v4 : FVec F S250000x3x1 .f32 := Host.absf main_arg1
  let main_cst_0 : FVec F S_ .f32 := constant S_ .f32 0x7F800000#32
  let main_v5 : FVec F S250000x3x1 .f32 := broadcastInDim S250000x3x1 ![] bcast_S_S250000x3x1 main_cst_0
  let main_v6 : IVec S250000x3x1 1 := cmpf .olt main_v4 main_v5
  let main_c_1 : IVec S_ 1 := constantI S_ 1 1#1
  let main_v7 : IVec S_ 1 := (fun x v => Host.reduce IntOp.andi x v reducesTo_S250000x3x1_S_d0_1_2 h_S_) main_v6 main_c_1
  let main_v8 : IVec S_ 1 := andi main_v3 main_v7
  let main_v9 : FVec F S250000x5x1 .f32 := Host.absf main_arg2
  let main_cst_2 : FVec F S_ .f32 := constant S_ .f32 0x7F800000#32
  let main_v10 : FVec F S250000x5x1 .f32 := broadcastInDim S250000x5x1 ![] bcast_S_S250000x5x1 main_cst_2
  let main_v11 : IVec S250000x5x1 1 := cmpf .olt main_v9 main_v10
  let main_c_3 : IVec S_ 1 := constantI S_ 1 1#1
  let main_v12 : IVec S_ 1 := (fun x v => Host.reduce IntOp.andi x v reducesTo_S250000x5x1_S_d0_1_2 h_S_) main_v11 main_c_3
  let main_v13 : IVec S_ 1 := andi main_v8 main_v12
  let main_v14 : FVec F S250000x7x1 .f32 := Host.absf main_arg3
  let main_cst_4 : FVec F S_ .f32 := constant S_ .f32 0x7F800000#32
  let main_v15 : FVec F S250000x7x1 .f32 := broadcastInDim S250000x7x1 ![] bcast_S_S250000x7x1 main_cst_4
  let main_v16 : IVec S250000x7x1 1 := cmpf .olt main_v14 main_v15
  fn_part1 (F := F) main_arg4 main_arg5 main_arg6 main_arg7 main_arg8 main_v13 main_v16
-- ==== Kernel.lean ====
abbrev S250000x1x1 : Shape := ⟨3, ![250000, 1, 1]⟩
abbrev S250000x3x1 : Shape := ⟨3, ![250000, 3, 1]⟩
abbrev S250000x5x1 : Shape := ⟨3, ![250000, 5, 1]⟩
abbrev S250000x7x1 : Shape := ⟨3, ![250000, 7, 1]⟩
abbrev S250000x256 : Shape := ⟨2, ![250000, 256]⟩
abbrev S250000x192 : Shape := ⟨2, ![250000, 192]⟩
abbrev S250000x128 : Shape := ⟨2, ![250000, 128]⟩
abbrev S250000x64 : Shape := ⟨2, ![250000, 64]⟩
abbrev S10000x1x256 : Shape := ⟨3, ![10000, 1, 256]⟩
abbrev S250000 : Shape := ⟨1, ![250000]⟩
abbrev S250000x1 : Shape := ⟨2, ![250000, 1]⟩
abbrev S250000x3 : Shape := ⟨2, ![250000, 3]⟩
abbrev S250000x5 : Shape := ⟨2, ![250000, 5]⟩
abbrev S250000x7 : Shape := ⟨2, ![250000, 7]⟩
abbrev S10000x256 : Shape := ⟨2, ![10000, 256]⟩
abbrev S_ : Shape := ⟨0, ![]⟩
abbrev S250000x1x256 : Shape := ⟨3, ![250000, 1, 256]⟩
abbrev S250000x3x192 : Shape := ⟨3, ![250000, 3, 192]⟩
abbrev S250000x5x128 : Shape := ⟨3, ![250000, 5, 128]⟩
abbrev S250000x7x64 : Shape := ⟨3, ![250000, 7, 64]⟩
abbrev S400x1 : Shape := ⟨2, ![400, 1]⟩
abbrev S400x3 : Shape := ⟨2, ![400, 3]⟩
abbrev S400x5 : Shape := ⟨2, ![400, 5]⟩
abbrev S400x7 : Shape := ⟨2, ![400, 7]⟩
abbrev S400x256 : Shape := ⟨2, ![400, 256]⟩
abbrev S400x192 : Shape := ⟨2, ![400, 192]⟩
abbrev S400x128 : Shape := ⟨2, ![400, 128]⟩
abbrev S400x64 : Shape := ⟨2, ![400, 64]⟩
abbrev S400x1x256 : Shape := ⟨3, ![400, 1, 256]⟩
abbrev S400x3x192 : Shape := ⟨3, ![400, 3, 192]⟩
abbrev S400x5x128 : Shape := ⟨3, ![400, 5, 128]⟩
abbrev S400x7x64 : Shape := ⟨3, ![400, 7, 64]⟩
abbrev S400x1x1 : Shape := ⟨3, ![400, 1, 1]⟩
abbrev S400x3x1 : Shape := ⟨3, ![400, 3, 1]⟩
abbrev S400x1x192 : Shape := ⟨3, ![400, 1, 192]⟩
abbrev S400x5x1 : Shape := ⟨3, ![400, 5, 1]⟩
abbrev S400x1x128 : Shape := ⟨3, ![400, 1, 128]⟩
abbrev S400x7x1 : Shape := ⟨3, ![400, 7, 1]⟩
abbrev S400x1x64 : Shape := ⟨3, ![400, 1, 64]⟩
abbrev S10000x3x192 : Shape := ⟨3, ![10000, 3, 192]⟩
abbrev S10000x5x128 : Shape := ⟨3, ![10000, 5, 128]⟩
abbrev S10000x7x64 : Shape := ⟨3, ![10000, 7, 64]⟩

abbrev nBuf : Space → Nat
  | .hbm => 45
  | .vmem => 26
  | .smem => 0
  | _ => 0

abbrev bufTy : (tb : Table) → Fin (tcTables nBuf tb) → BufTy
  | .hbm, ⟨0, _⟩ => ⟨S250000x1x1, .f32⟩
  | .hbm, ⟨1, _⟩ => ⟨S250000x3x1, .f32⟩
  | .hbm, ⟨2, _⟩ => ⟨S250000x5x1, .f32⟩
  | .hbm, ⟨3, _⟩ => ⟨S250000x7x1, .f32⟩
  | .hbm, ⟨4, _⟩ => ⟨S250000x256, .f32⟩
  | .hbm, ⟨5, _⟩ => ⟨S250000x192, .f32⟩
  | .hbm, ⟨6, _⟩ => ⟨S250000x128, .f32⟩
  | .hbm, ⟨7, _⟩ => ⟨S250000x64, .f32⟩
  | .hbm, ⟨8, _⟩ => ⟨S10000x1x256, .f32⟩
  | .hbm, ⟨9, _⟩ => ⟨S250000, .i32⟩
  | .hbm, ⟨10, _⟩ => ⟨S250000, .i32⟩
  | .hbm, ⟨11, _⟩ => ⟨S250000x1, .f32⟩
  | .hbm, ⟨12, _⟩ => ⟨S250000x3, .f32⟩
  | .hbm, ⟨13, _⟩ => ⟨S250000x5, .f32⟩
  | .hbm, ⟨14, _⟩ => ⟨S250000x7, .f32⟩
  | .hbm, ⟨15, _⟩ => ⟨S10000x256, .f32⟩
  | .hbm, ⟨16, _⟩ => ⟨S_, .i32⟩
  | .hbm, ⟨17, _⟩ => ⟨S250000, .i32⟩
  | .hbm, ⟨18, _⟩ => ⟨S250000, .i1⟩
  | .hbm, ⟨19, _⟩ => ⟨S_, .i32⟩
  | .hbm, ⟨20, _⟩ => ⟨S250000, .i32⟩
  | .hbm, ⟨21, _⟩ => ⟨S250000, .i32⟩
  | .hbm, ⟨22, _⟩ => ⟨S250000, .i32⟩
  | .hbm, ⟨23, _⟩ => ⟨S250000x1, .i32⟩
  | .hbm, ⟨24, _⟩ => ⟨S250000x256, .f32⟩
  | .hbm, ⟨25, _⟩ => ⟨S250000x1x256, .f32⟩
  | .hbm, ⟨26, _⟩ => ⟨S250000x3x192, .f32⟩
  | .hbm, ⟨27, _⟩ => ⟨S250000x5x128, .f32⟩
  | .hbm, ⟨28, _⟩ => ⟨S250000x7x64, .f32⟩
  | .hbm, ⟨29, _⟩ => ⟨S_, .f32⟩
  | .hbm, ⟨30, _⟩ => ⟨S10000x1x256, .f32⟩
  | .hbm, ⟨31, _⟩ => ⟨S250000x1, .i32⟩
  | .hbm, ⟨32, _⟩ => ⟨S10000x1x256, .f32⟩
  | .hbm, ⟨33, _⟩ => ⟨S_, .f32⟩
  | .hbm, ⟨34, _⟩ => ⟨S10000x3x192, .f32⟩
  | .hbm, ⟨35, _⟩ => ⟨S250000x1, .i32⟩
  | .hbm, ⟨36, _⟩ => ⟨S10000x3x192, .f32⟩
  | .hbm, ⟨37, _⟩ => ⟨S_, .f32⟩
  | .hbm, ⟨38, _⟩ => ⟨S10000x5x128, .f32⟩
  | .hbm, ⟨39, _⟩ => ⟨S250000x1, .i32⟩
  | .hbm, ⟨40, _⟩ => ⟨S10000x5x128, .f32⟩
  | .hbm, ⟨41, _⟩ => ⟨S_, .f32⟩
  | .hbm, ⟨42, _⟩ => ⟨S10000x7x64, .f32⟩
  | .hbm, ⟨43, _⟩ => ⟨S250000x1, .i32⟩
  | .hbm, ⟨44, _⟩ => ⟨S10000x7x64, .f32⟩
  | .local _ .vmem, ⟨0, _⟩ => ⟨S400x1, .f32⟩
  | .local _ .vmem, ⟨1, _⟩ => ⟨S400x1, .f32⟩
  | .local _ .vmem, ⟨2, _⟩ => ⟨S400x3, .f32⟩
  | .local _ .vmem, ⟨3, _⟩ => ⟨S400x3, .f32⟩
  | .local _ .vmem, ⟨4, _⟩ => ⟨S400x5, .f32⟩
  | .local _ .vmem, ⟨5, _⟩ => ⟨S400x5, .f32⟩
  | .local _ .vmem, ⟨6, _⟩ => ⟨S400x7, .f32⟩
  | .local _ .vmem, ⟨7, _⟩ => ⟨S400x7, .f32⟩
  | .local _ .vmem, ⟨8, _⟩ => ⟨S400x256, .f32⟩
  | .local _ .vmem, ⟨9, _⟩ => ⟨S400x256, .f32⟩
  | .local _ .vmem, ⟨10, _⟩ => ⟨S400x192, .f32⟩
  | .local _ .vmem, ⟨11, _⟩ => ⟨S400x192, .f32⟩
  | .local _ .vmem, ⟨12, _⟩ => ⟨S400x128, .f32⟩
  | .local _ .vmem, ⟨13, _⟩ => ⟨S400x128, .f32⟩
  | .local _ .vmem, ⟨14, _⟩ => ⟨S400x64, .f32⟩
  | .local _ .vmem, ⟨15, _⟩ => ⟨S400x64, .f32⟩
  | .local _ .vmem, ⟨16, _⟩ => ⟨S400x256, .f32⟩
  | .local _ .vmem, ⟨17, _⟩ => ⟨S400x256, .f32⟩
  | .local _ .vmem, ⟨18, _⟩ => ⟨S400x1x256, .f32⟩
  | .local _ .vmem, ⟨19, _⟩ => ⟨S400x1x256, .f32⟩
  | .local _ .vmem, ⟨20, _⟩ => ⟨S400x3x192, .f32⟩
  | .local _ .vmem, ⟨21, _⟩ => ⟨S400x3x192, .f32⟩
  | .local _ .vmem, ⟨22, _⟩ => ⟨S400x5x128, .f32⟩
  | .local _ .vmem, ⟨23, _⟩ => ⟨S400x5x128, .f32⟩
  | .local _ .vmem, ⟨24, _⟩ => ⟨S400x7x64, .f32⟩
  | .local _ .vmem, ⟨25, _⟩ => ⟨S400x7x64, .f32⟩
  | _, _ => ⟨S250000x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x7 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S400x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S400x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S400x3x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S400x5x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S400x7x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S250000x1x1_S250000x1 : S250000x1x1.ShapeCasts S250000x1
  shapeCasts_S250000x3x1_S250000x3 : S250000x3x1.ShapeCasts S250000x3
  shapeCasts_S250000x5x1_S250000x5 : S250000x5x1.ShapeCasts S250000x5
  shapeCasts_S250000x7x1_S250000x7 : S250000x7x1.ShapeCasts S250000x7
  shapeCasts_S10000x1x256_S10000x256 : S10000x1x256.ShapeCasts S10000x256
  bcast_S_S250000 : S_.BroadcastsInDim S250000 (![] : Fin 0 → Fin S250000.rank)
  bcast_S250000_S250000x1_0 : S250000.BroadcastsInDim S250000x1 (![0] : Fin 1 → Fin S250000x1.rank)
  inb_S400x256_S400x256_0_0 : ∀ a, (![0, 0] : Fin 2 → Nat) a + S400x256.size a ≤ S400x256.size a
  h_S400x256 : 0 < S400x256.numel
  shapeCasts_S400x256_S400x256 : S400x256.ShapeCasts S400x256
  inb_S400x1_S400x1_0_0 : ∀ a, (![0, 0] : Fin 2 → Nat) a + S400x1.size a ≤ S400x1.size a
  h_S400x1 : 0 < S400x1.numel
  shapeCasts_S400x1_S400x1 : S400x1.ShapeCasts S400x1
  shapeCasts_S400x1_S400x1x1 : S400x1.ShapeCasts S400x1x1
  shapeCasts_S400x256_S400x1x256 : S400x256.ShapeCasts S400x1x256
  broadcasts_S400x1x1_S400x1x256 : S400x1x1.Broadcasts S400x1x256
  inb_S400x1x256_S400x1x256_0_0_0 : ∀ a, (![0, 0, 0] : Fin 3 → Nat) a + S400x1x256.size a ≤ S400x1x256.size a
  h_S400x1x256 : 0 < S400x1x256.numel
  inb_S400x3_S400x3_0_0 : ∀ a, (![0, 0] : Fin 2 → Nat) a + S400x3.size a ≤ S400x3.size a
  h_S400x3 : 0 < S400x3.numel
  shapeCasts_S400x3_S400x3 : S400x3.ShapeCasts S400x3
  inb_S400x192_S400x192_0_0 : ∀ a, (![0, 0] : Fin 2 → Nat) a + S400x192.size a ≤ S400x192.size a
  h_S400x192 : 0 < S400x192.numel
  slices_S400x256_o0_0_S400x192 : S400x256.Slices ![0, 0] S400x192
  shapeCasts_S400x3_S400x3x1 : S400x3.ShapeCasts S400x3x1
  shapeCasts_S400x192_S400x1x192 : S400x192.ShapeCasts S400x1x192
  broadcasts_S400x3x1_S400x3x192 : S400x3x1.Broadcasts S400x3x192
  broadcasts_S400x1x192_S400x3x192 : S400x1x192.Broadcasts S400x3x192
  inb_S400x3x192_S400x3x192_0_0_0 : ∀ a, (![0, 0, 0] : Fin 3 → Nat) a + S400x3x192.size a ≤ S400x3x192.size a
  h_S400x3x192 : 0 < S400x3x192.numel
  inb_S400x5_S400x5_0_0 : ∀ a, (![0, 0] : Fin 2 → Nat) a + S400x5.size a ≤ S400x5.size a
  h_S400x5 : 0 < S400x5.numel
  shapeCasts_S400x5_S400x5 : S400x5.ShapeCasts S400x5
  inb_S400x128_S400x128_0_0 : ∀ a, (![0, 0] : Fin 2 → Nat) a + S400x128.size a ≤ S400x128.size a
  h_S400x128 : 0 < S400x128.numel
  slices_S400x256_o0_0_S400x128 : S400x256.Slices ![0, 0] S400x128
  shapeCasts_S400x5_S400x5x1 : S400x5.ShapeCasts S400x5x1
  shapeCasts_S400x128_S400x1x128 : S400x128.ShapeCasts S400x1x128
  broadcasts_S400x5x1_S400x5x128 : S400x5x1.Broadcasts S400x5x128
  broadcasts_S400x1x128_S400x5x128 : S400x1x128.Broadcasts S400x5x128
  inb_S400x5x128_S400x5x128_0_0_0 : ∀ a, (![0, 0, 0] : Fin 3 → Nat) a + S400x5x128.size a ≤ S400x5x128.size a
  h_S400x5x128 : 0 < S400x5x128.numel
  inb_S400x7_S400x7_0_0 : ∀ a, (![0, 0] : Fin 2 → Nat) a + S400x7.size a ≤ S400x7.size a
  h_S400x7 : 0 < S400x7.numel
  shapeCasts_S400x7_S400x7 : S400x7.ShapeCasts S400x7
  inb_S400x64_S400x64_0_0 : ∀ a, (![0, 0] : Fin 2 → Nat) a + S400x64.size a ≤ S400x64.size a
  h_S400x64 : 0 < S400x64.numel
  slices_S400x256_o0_0_S400x64 : S400x256.Slices ![0, 0] S400x64
  shapeCasts_S400x7_S400x7x1 : S400x7.ShapeCasts S400x7x1
  shapeCasts_S400x64_S400x1x64 : S400x64.ShapeCasts S400x1x64
  broadcasts_S400x7x1_S400x7x64 : S400x7x1.Broadcasts S400x7x64
  broadcasts_S400x1x64_S400x7x64 : S400x1x64.Broadcasts S400x7x64
  inb_S400x7x64_S400x7x64_0_0_0 : ∀ a, (![0, 0, 0] : Fin 3 → Nat) a + S400x7x64.size a ≤ S400x7x64.size a
  h_S400x7x64 : 0 < S400x7x64.numel
  bcast_S_S10000x1x256 : S_.BroadcastsInDim S10000x1x256 (![] : Fin 0 → Fin S10000x1x256.rank)
  bcast_S_S10000x3x192 : S_.BroadcastsInDim S10000x3x192 (![] : Fin 0 → Fin S10000x3x192.rank)
  bcast_S_S10000x5x128 : S_.BroadcastsInDim S10000x5x128 (![] : Fin 0 → Fin S10000x5x128.rank)
  bcast_S_S10000x7x64 : S_.BroadcastsInDim S10000x7x64 (![] : Fin 0 → Fin S10000x7x64.rank)
  gather_S10000x256_S250000x1_S250000x256_1_0_n_n_0_1_1256_wf : GatherDims.WF S10000x256 S250000x1 S250000x256 [1] [0] [] [0] [] 1 ![1, 256]
  scatter_S10000x1x256_S250000x1_S250000x1x256_12_0_0_1_wf : ScatterDims.WF S10000x1x256 S250000x1 S250000x1x256 [1, 2] [0] [0] 1
  scatter_S10000x3x192_S250000x1_S250000x3x192_12_0_0_1_wf : ScatterDims.WF S10000x3x192 S250000x1 S250000x3x192 [1, 2] [0] [0] 1
  scatter_S10000x5x128_S250000x1_S250000x5x128_12_0_0_1_wf : ScatterDims.WF S10000x5x128 S250000x1 S250000x5x128 [1, 2] [0] [0] 1
  scatter_S10000x7x64_S250000x1_S250000x7x64_12_0_0_1_wf : ScatterDims.WF S10000x7x64 S250000x1 S250000x7x64 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x1.size a ≤ S250000x1.size a
  hwx0_0 : ∀ i : grid0.Coords, EltTy.bits .f32 = 32 ∨ (Rect.block (s := S250000x1) S400x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x3.size a ≤ S250000x3.size a
  hwx0_1 : ∀ i : grid0.Coords, EltTy.bits .f32 = 32 ∨ (Rect.block (s := S250000x3) S400x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x5.size a ≤ S250000x5.size a
  hwx0_2 : ∀ i : grid0.Coords, EltTy.bits .f32 = 32 ∨ (Rect.block (s := S250000x5) S400x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x7.size a ≤ S250000x7.size a
  hwx0_3 : ∀ i : grid0.Coords, EltTy.bits .f32 = 32 ∨ (Rect.block (s := S250000x7) S400x7.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x256.size a ≤ S250000x256.size a
  hwx0_4 : ∀ i : grid0.Coords, EltTy.bits .f32 = 32 ∨ (Rect.block (s := S250000x256) S400x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x192.size a ≤ S250000x192.size a
  hwx0_5 : ∀ i : grid0.Coords, EltTy.bits .f32 = 32 ∨ (Rect.block (s := S250000x192) S400x192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S250000x128.size a
  hwx0_6 : ∀ i : grid0.Coords, EltTy.bits .f32 = 32 ∨ (Rect.block (s := S250000x128) S400x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x64.size a ≤ S250000x64.size a
  hwx0_7 : ∀ i : grid0.Coords, EltTy.bits .f32 = 32 ∨ (Rect.block (s := S250000x64) S400x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x256.size a ≤ S250000x256.size a
  hwx0_8 : ∀ i : grid0.Coords, EltTy.bits .f32 = 32 ∨ (Rect.block (s := S250000x256) S400x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x1x256.size a ≤ S250000x1x256.size a
  hwx0_9 : ∀ i : grid0.Coords, EltTy.bits .f32 = 32 ∨ (Rect.block (s := S250000x1x256) S400x1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S400x3x192.size a ≤ S250000x3x192.size a
  hwx0_10 : ∀ i : grid0.Coords, EltTy.bits .f32 = 32 ∨ (Rect.block (s := S250000x3x192) S400x3x192.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S400x5x128.size a ≤ S250000x5x128.size a
  hwx0_11 : ∀ i : grid0.Coords, EltTy.bits .f32 = 32 ∨ (Rect.block (s := S250000x5x128) S400x5x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S400x7x64.size a ≤ S250000x7x64.size a
  hwx0_12 : ∀ i : grid0.Coords, EltTy.bits .f32 = 32 ∨ (Rect.block (s := S250000x7x64) S400x7x64.size (cc0_transform_12 i) (hinb0_12 i)).WholeWords (EltTy.packing .f32)

variable [Facts₀]

def gather_S10000x256_S250000x1_S250000x256_1_0_n_n_0_1_1256 : GatherDims S10000x256 S250000x1 S250000x256 where
  offsetDims := [1]
  collapsedSliceDims := [0]
  operandBatchingDims := []
  startIndicesBatchingDims := []
  startIndexMap := [0]
  indexVectorDim := 1
  sliceSizes := ![1, 256]
  wf := gather_S10000x256_S250000x1_S250000x256_1_0_n_n_0_1_1256_wf
def scatter_S10000x1x256_S250000x1_S250000x1x256_12_0_0_1 : ScatterDims S10000x1x256 S250000x1 S250000x1x256 where
  updateWindowDims := [1, 2]
  insertedWindowDims := [0]
  scatterDimsToOperandDims := [0]
  indexVectorDim := 1
  wf := scatter_S10000x1x256_S250000x1_S250000x1x256_12_0_0_1_wf
def scatter_S10000x3x192_S250000x1_S250000x3x192_12_0_0_1 : ScatterDims S10000x3x192 S250000x1 S250000x3x192 where
  updateWindowDims := [1, 2]
  insertedWindowDims := [0]
  scatterDimsToOperandDims := [0]
  indexVectorDim := 1
  wf := scatter_S10000x3x192_S250000x1_S250000x3x192_12_0_0_1_wf
def scatter_S10000x5x128_S250000x1_S250000x5x128_12_0_0_1 : ScatterDims S10000x5x128 S250000x1 S250000x5x128 where
  updateWindowDims := [1, 2]
  insertedWindowDims := [0]
  scatterDimsToOperandDims := [0]
  indexVectorDim := 1
  wf := scatter_S10000x5x128_S250000x1_S250000x5x128_12_0_0_1_wf
def scatter_S10000x7x64_S250000x1_S250000x7x64_12_0_0_1 : ScatterDims S10000x7x64 S250000x1 S250000x7x64 where
  updateWindowDims := [1, 2]
  insertedWindowDims := [0]
  scatterDimsToOperandDims := [0]
  indexVectorDim := 1
  wf := scatter_S10000x7x64_S250000x1_S250000x7x64_12_0_0_1_wf

abbrev win0_0 : Pipeline.Window sig grid0 :=
  Pipeline.Window.ofSpec (Memref.whole main_v0) S400x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S400x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S400x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S400x7.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S400x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S400x192.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S400x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S400x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11) S400x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12_0) S400x1x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v12_1) S400x3x192.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12_2) S400x5x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12_3) S400x7x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S250000x1x1 : Shape := ⟨3, ![250000, 1, 1]⟩
abbrev S250000x3x1 : Shape := ⟨3, ![250000, 3, 1]⟩
abbrev S250000x5x1 : Shape := ⟨3, ![250000, 5, 1]⟩
abbrev S250000x7x1 : Shape := ⟨3, ![250000, 7, 1]⟩
abbrev S250000x256 : Shape := ⟨2, ![250000, 256]⟩
abbrev S250000x192 : Shape := ⟨2, ![250000, 192]⟩
abbrev S250000x128 : Shape := ⟨2, ![250000, 128]⟩
abbrev S250000x64 : Shape := ⟨2, ![250000, 64]⟩
abbrev S10000x1x256 : Shape := ⟨3, ![10000, 1, 256]⟩
abbrev S250000 : Shape := ⟨1, ![250000]⟩
abbrev S_ : Shape := ⟨0, ![]⟩
abbrev S250000x1 : Shape := ⟨2, ![250000, 1]⟩
abbrev S250000x1x256 : Shape := ⟨3, ![250000, 1, 256]⟩
abbrev S250000x1x192 : Shape := ⟨3, ![250000, 1, 192]⟩
abbrev S250000x3x192 : Shape := ⟨3, ![250000, 3, 192]⟩
abbrev S10000x3x192 : Shape := ⟨3, ![10000, 3, 192]⟩
abbrev S250000x1x128 : Shape := ⟨3, ![250000, 1, 128]⟩
abbrev S250000x5x128 : Shape := ⟨3, ![250000, 5, 128]⟩
abbrev S10000x5x128 : Shape := ⟨3, ![10000, 5, 128]⟩
abbrev S250000x1x64 : Shape := ⟨3, ![250000, 1, 64]⟩
abbrev S250000x7x64 : Shape := ⟨3, ![250000, 7, 64]⟩
abbrev S10000x7x64 : Shape := ⟨3, ![10000, 7, 64]⟩

abbrev nBuf : Space → Nat
  | .hbm => 61
  | .vmem => 0
  | .smem => 0
  | _ => 0

abbrev bufTy : (tb : Table) → Fin (tcTables nBuf tb) → BufTy
  | .hbm, ⟨0, _⟩ => ⟨S250000x1x1, .f32⟩
  | .hbm, ⟨1, _⟩ => ⟨S250000x3x1, .f32⟩
  | .hbm, ⟨2, _⟩ => ⟨S250000x5x1, .f32⟩
  | .hbm, ⟨3, _⟩ => ⟨S250000x7x1, .f32⟩
  | .hbm, ⟨4, _⟩ => ⟨S250000x256, .f32⟩
  | .hbm, ⟨5, _⟩ => ⟨S250000x192, .f32⟩
  | .hbm, ⟨6, _⟩ => ⟨S250000x128, .f32⟩
  | .hbm, ⟨7, _⟩ => ⟨S250000x64, .f32⟩
  | .hbm, ⟨8, _⟩ => ⟨S10000x1x256, .f32⟩
  | .hbm, ⟨9, _⟩ => ⟨S250000, .i32⟩
  | .hbm, ⟨10, _⟩ => ⟨S250000, .i32⟩
  | .hbm, ⟨11, _⟩ => ⟨S_, .i32⟩
  | .hbm, ⟨12, _⟩ => ⟨S250000, .i32⟩
  | .hbm, ⟨13, _⟩ => ⟨S250000, .i1⟩
  | .hbm, ⟨14, _⟩ => ⟨S_, .i32⟩
  | .hbm, ⟨15, _⟩ => ⟨S250000, .i32⟩
  | .hbm, ⟨16, _⟩ => ⟨S250000, .i32⟩
  | .hbm, ⟨17, _⟩ => ⟨S250000, .i32⟩
  | .hbm, ⟨18, _⟩ => ⟨S250000x1, .i32⟩
  | .hbm, ⟨19, _⟩ => ⟨S250000x1x256, .f32⟩
  | .hbm, ⟨20, _⟩ => ⟨S250000x1x256, .f32⟩
  | .hbm, ⟨21, _⟩ => ⟨S250000x1x256, .f32⟩
  | .hbm, ⟨22, _⟩ => ⟨S250000x1x256, .f32⟩
  | .hbm, ⟨23, _⟩ => ⟨S250000x1x256, .f32⟩
  | .hbm, ⟨24, _⟩ => ⟨S_, .f32⟩
  | .hbm, ⟨25, _⟩ => ⟨S10000x1x256, .f32⟩
  | .hbm, ⟨26, _⟩ => ⟨S250000x1, .i32⟩
  | .hbm, ⟨27, _⟩ => ⟨S10000x1x256, .f32⟩
  | .hbm, ⟨28, _⟩ => ⟨S250000x1x192, .f32⟩
  | .hbm, ⟨29, _⟩ => ⟨S250000x3x192, .f32⟩
  | .hbm, ⟨30, _⟩ => ⟨S250000x3x192, .f32⟩
  | .hbm, ⟨31, _⟩ => ⟨S250000x3x192, .f32⟩
  | .hbm, ⟨32, _⟩ => ⟨S250000x1x192, .f32⟩
  | .hbm, ⟨33, _⟩ => ⟨S250000x3x192, .f32⟩
  | .hbm, ⟨34, _⟩ => ⟨S250000x3x192, .f32⟩
  | .hbm, ⟨35, _⟩ => ⟨S_, .f32⟩
  | .hbm, ⟨36, _⟩ => ⟨S10000x3x192, .f32⟩
  | .hbm, ⟨37, _⟩ => ⟨S250000x1, .i32⟩
  | .hbm, ⟨38, _⟩ => ⟨S10000x3x192, .f32⟩
  | .hbm, ⟨39, _⟩ => ⟨S250000x1x128, .f32⟩
  | .hbm, ⟨40, _⟩ => ⟨S250000x5x128, .f32⟩
  | .hbm, ⟨41, _⟩ => ⟨S250000x5x128, .f32⟩
  | .hbm, ⟨42, _⟩ => ⟨S250000x5x128, .f32⟩
  | .hbm, ⟨43, _⟩ => ⟨S250000x1x128, .f32⟩
  | .hbm, ⟨44, _⟩ => ⟨S250000x5x128, .f32⟩
  | .hbm, ⟨45, _⟩ => ⟨S250000x5x128, .f32⟩
  | .hbm, ⟨46, _⟩ => ⟨S_, .f32⟩
  | .hbm, ⟨47, _⟩ => ⟨S10000x5x128, .f32⟩
  | .hbm, ⟨48, _⟩ => ⟨S250000x1, .i32⟩
  | .hbm, ⟨49, _⟩ => ⟨S10000x5x128, .f32⟩
  | .hbm, ⟨50, _⟩ => ⟨S250000x1x64, .f32⟩
  | .hbm, ⟨51, _⟩ => ⟨S250000x7x64, .f32⟩
  | .hbm, ⟨52, _⟩ => ⟨S250000x7x64, .f32⟩
  | .hbm, ⟨53, _⟩ => ⟨S250000x7x64, .f32⟩
  | .hbm, ⟨54, _⟩ => ⟨S250000x1x64, .f32⟩
  | .hbm, ⟨55, _⟩ => ⟨S250000x7x64, .f32⟩
  | .hbm, ⟨56, _⟩ => ⟨S250000x7x64, .f32⟩
  | .hbm, ⟨57, _⟩ => ⟨S_, .f32⟩
  | .hbm, ⟨58, _⟩ => ⟨S10000x7x64, .f32⟩
  | .hbm, ⟨59, _⟩ => ⟨S250000x1, .i32⟩
  | .hbm, ⟨60, _⟩ => ⟨S10000x7x64, .f32⟩
  | _, _ => ⟨S250000x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  bcast_S_S250000 : S_.BroadcastsInDim S250000 (![] : Fin 0 → Fin S250000.rank)
  bcast_S250000_S250000x1_0 : S250000.BroadcastsInDim S250000x1 (![0] : Fin 1 → Fin S250000x1.rank)
  bcast_S250000x256_S250000x1x256_0_2 : S250000x256.BroadcastsInDim S250000x1x256 (![0, 2] : Fin 2 → Fin S250000x1x256.rank)
  bcast_S250000x1x1_S250000x1x256_0_1_2 : S250000x1x1.BroadcastsInDim S250000x1x256 (![0, 1, 2] : Fin 3 → Fin S250000x1x256.rank)
  bcast_S_S10000x1x256 : S_.BroadcastsInDim S10000x1x256 (![] : Fin 0 → Fin S10000x1x256.rank)
  bcast_S250000x192_S250000x1x192_0_2 : S250000x192.BroadcastsInDim S250000x1x192 (![0, 2] : Fin 2 → Fin S250000x1x192.rank)
  bcast_S250000x3x1_S250000x3x192_0_1_2 : S250000x3x1.BroadcastsInDim S250000x3x192 (![0, 1, 2] : Fin 3 → Fin S250000x3x192.rank)
  bcast_S250000x1x192_S250000x3x192_0_1_2 : S250000x1x192.BroadcastsInDim S250000x3x192 (![0, 1, 2] : Fin 3 → Fin S250000x3x192.rank)
  slices_S250000x1x256_S250000x1x192_0_0_0 : S250000x1x256.Slices ![0, 0, 0] S250000x1x192
  bcast_S_S10000x3x192 : S_.BroadcastsInDim S10000x3x192 (![] : Fin 0 → Fin S10000x3x192.rank)
  bcast_S250000x128_S250000x1x128_0_2 : S250000x128.BroadcastsInDim S250000x1x128 (![0, 2] : Fin 2 → Fin S250000x1x128.rank)
  bcast_S250000x5x1_S250000x5x128_0_1_2 : S250000x5x1.BroadcastsInDim S250000x5x128 (![0, 1, 2] : Fin 3 → Fin S250000x5x128.rank)
  bcast_S250000x1x128_S250000x5x128_0_1_2 : S250000x1x128.BroadcastsInDim S250000x5x128 (![0, 1, 2] : Fin 3 → Fin S250000x5x128.rank)
  slices_S250000x1x256_S250000x1x128_0_0_0 : S250000x1x256.Slices ![0, 0, 0] S250000x1x128
  bcast_S_S10000x5x128 : S_.BroadcastsInDim S10000x5x128 (![] : Fin 0 → Fin S10000x5x128.rank)
  bcast_S250000x64_S250000x1x64_0_2 : S250000x64.BroadcastsInDim S250000x1x64 (![0, 2] : Fin 2 → Fin S250000x1x64.rank)
  bcast_S250000x7x1_S250000x7x64_0_1_2 : S250000x7x1.BroadcastsInDim S250000x7x64 (![0, 1, 2] : Fin 3 → Fin S250000x7x64.rank)
  bcast_S250000x1x64_S250000x7x64_0_1_2 : S250000x1x64.BroadcastsInDim S250000x7x64 (![0, 1, 2] : Fin 3 → Fin S250000x7x64.rank)
  slices_S250000x1x256_S250000x1x64_0_0_0 : S250000x1x256.Slices ![0, 0, 0] S250000x1x64
  bcast_S_S10000x7x64 : S_.BroadcastsInDim S10000x7x64 (![] : Fin 0 → Fin S10000x7x64.rank)
  gather_S10000x1x256_S250000x1_S250000x1x256_12_0_n_n_0_1_11256_wf : GatherDims.WF S10000x1x256 S250000x1 S250000x1x256 [1, 2] [0] [] [0] [] 1 ![1, 1, 256]
  scatter_S10000x1x256_S250000x1_S250000x1x256_12_0_0_1_wf : ScatterDims.WF S10000x1x256 S250000x1 S250000x1x256 [1, 2] [0] [0] 1
  scatter_S10000x3x192_S250000x1_S250000x3x192_12_0_0_1_wf : ScatterDims.WF S10000x3x192 S250000x1 S250000x3x192 [1, 2] [0] [0] 1
  scatter_S10000x5x128_S250000x1_S250000x5x128_12_0_0_1_wf : ScatterDims.WF S10000x5x128 S250000x1 S250000x5x128 [1, 2] [0] [0] 1
  scatter_S10000x7x64_S250000x1_S250000x7x64_12_0_0_1_wf : ScatterDims.WF S10000x7x64 S250000x1 S250000x7x64 [1, 2] [0] [0] 1

variable [Facts₀]

def gather_S10000x1x256_S250000x1_S250000x1x256_12_0_n_n_0_1_11256 : GatherDims S10000x1x256 S250000x1 S250000x1x256 where
  offsetDims := [1, 2]
  collapsedSliceDims := [0]
  operandBatchingDims := []
  startIndicesBatchingDims := []
  startIndexMap := [0]
  indexVectorDim := 1
  sliceSizes := ![1, 1, 256]
  wf := gather_S10000x1x256_S250000x1_S250000x1x256_12_0_n_n_0_1_11256_wf
def scatter_S10000x1x256_S250000x1_S250000x1x256_12_0_0_1 : ScatterDims S10000x1x256 S250000x1 S250000x1x256 where
  updateWindowDims := [1, 2]
  insertedWindowDims := [0]
  scatterDimsToOperandDims := [0]
  indexVectorDim := 1
  wf := scatter_S10000x1x256_S250000x1_S250000x1x256_12_0_0_1_wf
def scatter_S10000x3x192_S250000x1_S250000x3x192_12_0_0_1 : ScatterDims S10000x3x192 S250000x1 S250000x3x192 where
  updateWindowDims := [1, 2]
  insertedWindowDims := [0]
  scatterDimsToOperandDims := [0]
  indexVectorDim := 1
  wf := scatter_S10000x3x192_S250000x1_S250000x3x192_12_0_0_1_wf
def scatter_S10000x5x128_S250000x1_S250000x5x128_12_0_0_1 : ScatterDims S10000x5x128 S250000x1 S250000x5x128 where
  updateWindowDims := [1, 2]
  insertedWindowDims := [0]
  scatterDimsToOperandDims := [0]
  indexVectorDim := 1
  wf := scatter_S10000x5x128_S250000x1_S250000x5x128_12_0_0_1_wf
def scatter_S10000x7x64_S250000x1_S250000x7x64_12_0_0_1 : ScatterDims S10000x7x64 S250000x1 S250000x7x64 where
  updateWindowDims := [1, 2]
  insertedWindowDims := [0]
  scatterDimsToOperandDims := [0]
  indexVectorDim := 1
  wf := scatter_S10000x7x64_S250000x1_S250000x7x64_12_0_0_1_wf

class Facts : Prop extends Facts₀ where

variable [Facts]
-- ==== Proof.BlockReads.lean ====
/-
  A window's block at a grid point is its array read through the block's rectangle: entry y of the block of window w
  at point t is the array's entry at the rectangle's embedding of y. Stated once per input window of the one
  pallas call (windows 0–3 the angular arrays without their unit axis, 4–7 the radial arrays, 8 the gathered
  neighbour features), with the two constant index functions the staging buffers are addressed by.
-/
import proofs.«127102_j21474836480309_2_alg».proof.Proof.Gen.KernelIdeal.Frame
import Idealize.ShloMosaic.Lib.Pipeline.Value
import Idealize.ShloMosaic.PureOps.Ideal

noncomputable section

namespace Cert.KernelIdeal.Messages

open Idealize.ShloMosaic Idealize.ShloMosaic.TcCoe Idealize.SL.Sem
open Cert.KernelIdeal Cert.KernelIdeal.Gen

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl

theorem iblk0_apply (c : Dev nD) (t : Fin cfg0.N) (y : ((cfg0.win 0).xblock (cfg0.grid.coords t)).Idx) :
    iblk m c 0 t y = V m c main_v0 (((cfg0.win 0).blk t).view.emb y) := rfl
theorem iblk1_apply (c : Dev nD) (t : Fin cfg0.N) (y : ((cfg0.win 1).xblock (cfg0.grid.coords t)).Idx) :
    iblk m c 1 t y = V m c main_v1 (((cfg0.win 1).blk t).view.emb y) := rfl
theorem iblk2_apply (c : Dev nD) (t : Fin cfg0.N) (y : ((cfg0.win 2).xblock (cfg0.grid.coords t)).Idx) :
    iblk m c 2 t y = V m c main_v2 (((cfg0.win 2).blk t).view.emb y) := rfl
theorem iblk3_apply (c : Dev nD) (t : Fin cfg0.N) (y : ((cfg0.win 3).xblock (cfg0.grid.coords t)).Idx) :
    iblk m c 3 t y = V m c main_v3 (((cfg0.win 3).blk t).view.emb y) := rfl
theorem iblk4_apply (c : Dev nD) (t : Fin cfg0.N) (y : ((cfg0.win 4).xblock (cfg0.grid.coords t)).Idx) :
    iblk m c 4 t y = V m c main_arg4 (((cfg0.win 4).blk t).view.emb y) := rfl
theorem iblk5_apply (c : Dev nD) (t : Fin cfg0.N) (y : ((cfg0.win 5).xblock (cfg0.grid.coords t)).Idx) :
    iblk m c 5 t y = V m c main_arg5 (((cfg0.win 5).blk t).view.emb y) := rfl
theorem iblk6_apply (c : Dev nD) (t : Fin cfg0.N) (y : ((cfg0.win 6).xblock (cfg0.grid.coords t)).Idx) :
    iblk m c 6 t y = V m c main_arg6 (((cfg0.win 6).blk t).view.emb y) := rfl
theorem iblk7_apply (c : Dev nD) (t : Fin cfg0.N) (y : ((cfg0.win 7).xblock (cfg0.grid.coords t)).Idx) :
    iblk m c 7 t y = V m c main_arg7 (((cfg0.win 7).blk t).view.emb y) := rfl
theorem iblk8_apply (c : Dev nD) (t : Fin cfg0.N) (y : ((cfg0.win 8).xblock (cfg0.grid.coords t)).Idx) :
    iblk m c 8 t y = V m c main_v11 (((cfg0.win 8).blk t).view.emb y) := rfl

end Cert.KernelIdeal.Messages

end
-- ==== Proof.LibBlockLayout.lean ====
/-
  Blocks of rank 2 and 3 re-laid by the vector dialect, and rows picked by an integer list, each read at an index
  given by its coordinates. For any extents and any element type:

  * a trailing unit axis added by a shape cast, [a, b] → [a, b, 1], and a middle one, [a, c] → [a, 1, c]: the
    element at (p, q, 0), resp. (p, 0, r), is the operand's at (p, q), resp. (p, r) — the row-major position is kept;
  * a unit axis repeated by a broadcast, [a, b, 1] → [a, b, c] and [a, 1, c] → [a, b, c]: the element at (p, q, r) is
    the operand's at (p, q, 0), resp. (p, 0, r);
  * the leading c of cc columns cut by a unit-stride slice at offset (0, 0), [a, cc] → [a, c]: column r stays column r;
  * a StableHLO gather of whole rows of a stack [N, 1, C] of one-row matrices at start indices [M, 1]: result
    element (e, 0, f) is the operand's element (n, 0, f) with n the start index of e read as a signed integer and
    clamped into [0, N − 1];
  * a unit axis dropped by a reshape, [N, 1, C] → [N, C] and [a, b, 1] → [a, b]: element (n, f) is the stack's
    (n, 0, f), element (p, q) the operand's (p, q, 0).
-/
import Idealize.ShloMosaic.PureOps.Ideal
import Idealize.ShloMosaic.Lib.ValueIdx
import Idealize.ShloMosaic.Lib.Pipeline.Value

noncomputable section

namespace Cert.Lib.BlockLayout

open Idealize.ShloMosaic Idealize.ShloMosaic.ValueIdx

variable {α : Type}

/-! ## Unit axes added -/

/-- [a, b] → [a, b, 1]: position (p·b + q)·1 + 0 is position p·b + q. -/
theorem shapeCast_addLast_apply {a b : Nat} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h (ix3 p q u) (ix2 p q) (by
    rw [Shape.rowMajor_val_two, Shape.rowMajor_val_three]
    show p.val * b + q.val = (p.val * b + q.val) * 1 + u.val
    have := u.isLt; omega)

/-- [a, c] → [a, 1, c]: position (p·1 + 0)·c + r is position p·c + r. -/
theorem shapeCast_addMid_apply {a c : Nat} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h (ix3 p u r) (ix2 p r) (by
    rw [Shape.rowMajor_val_two, Shape.rowMajor_val_three]
    show p.val * c + r.val = (p.val * 1 + u.val) * c + r.val
    have hu : u.val = 0 := by have := u.isLt; omega
    rw [hu, Nat.mul_one, Nat.add_zero])

/-! ## Unit axes repeated -/

/-- [a, b, 1] → [a, b, c]: every entry along the last axis is the one entry of the operand's. -/
theorem broadcast_last_apply {a b c : Nat} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q (0 : Fin 1)) :=
  broadcastTo_apply x h (ix3 p q r) (ix3 p q (0 : Fin 1)) fun d => by
    match d with
    | ⟨0, _⟩ => show p.val = if a = 1 then 0 else p.val; have := p.isLt; split <;> omega
    | ⟨1, _⟩ => show q.val = if b = 1 then 0 else q.val; have := q.isLt; split <;> omega
    | ⟨2, _⟩ => show 0 = if (1 : Nat) = 1 then 0 else r.val; rw [if_pos rfl]

/-- [a, 1, c] → [a, b, c]: every row of the middle axis is the operand's one row. -/
theorem broadcast_mid_apply {a b c : Nat} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) :=
  broadcastTo_apply x h (ix3 p q r) (ix3 p (0 : Fin 1) r) fun d => by
    match d with
    | ⟨0, _⟩ => show p.val = if a = 1 then 0 else p.val; have := p.isLt; split <;> omega
    | ⟨1, _⟩ => show 0 = if (1 : Nat) = 1 then 0 else q.val; rw [if_pos rfl]
    | ⟨2, _⟩ => show r.val = if c = 1 then 0 else r.val; have := r.isLt; split <;> omega

/-! ## Leading columns cut -/

/-- [a, cc] → [a, c] at offset (0, 0): column r of the cut is column r of the operand. -/
theorem slice_cols_apply {a c cc : Nat} (hc : c ≤ cc) (x : (⟨2, ![a, cc]⟩ : Shape).Idx → α)
    (h : (⟨2, ![a, cc]⟩ : Shape).Slices ![0, 0] ⟨2, ![a, c]⟩) (p : Fin a) (r : Fin c) :
    extractStridedSlice ⟨2, ![a, c]⟩ ![0, 0] x h (ix2 p r) = x (ix2 p ⟨r.val, Nat.lt_of_lt_of_le r.isLt hc⟩) :=
  extractStridedSlice_apply ![0, 0] x h (ix2 p r) (ix2 p ⟨r.val, Nat.lt_of_lt_of_le r.isLt hc⟩) fun d => by
    match d with
    | ⟨0, _⟩ => show p.val = 0 + p.val; omega
    | ⟨1, _⟩ => show r.val = 0 + r.val; omega

/-! ## Rows of a stack of one-row matrices picked by a list -/

/-- Gather of whole one-row matrices of a stack [N, 1, C] at start indices [M, 1]: the stack axis collapsed and
    named by the start index, the two matrix axes offset axes of full extent. -/
abbrev gatherRows3 (N M C : Nat)
    (wf : GatherDims.WF ⟨3, ![N, 1, C]⟩ ⟨2, ![M, 1]⟩ ⟨3, ![M, 1, C]⟩ [1, 2] [0] [] [0] [] 1 ![1, 1, C]) :
    GatherDims ⟨3, ![N, 1, C]⟩ ⟨2, ![M, 1]⟩ ⟨3, ![M, 1, C]⟩ where
  offsetDims := [1, 2]
  collapsedSliceDims := [0]
  operandBatchingDims := []
  startIndicesBatchingDims := []
  startIndexMap := [0]
  indexVectorDim := 1
  sliceSizes := ![1, 1, C]
  wf := wf

/-- The place of entry e in the [M, 1] array of start indices. -/
abbrev at0 {M : Nat} (e : Fin M) : (⟨2, ![M, 1]⟩ : Shape).Idx := ix2 e (0 : Fin 1)

/-- Element (e, u, f) of the gathered stack is the operand's element (n, u, f), n the start index of e read signed
    and clamped into [0, N − 1]: on the stack axis the operand index is the clamped start alone, on the two matrix
    axes the start is 0 and the offset coordinate is the result's. -/
theorem gatherRows3_apply {N M C w : Nat} (hN : 0 < N)
    (wf : GatherDims.WF ⟨3, ![N, 1, C]⟩ ⟨2, ![M, 1]⟩ ⟨3, ![M, 1, C]⟩ [1, 2] [0] [] [0] [] 1 ![1, 1, C])
    (x : (⟨3, ![N, 1, C]⟩ : Shape).Idx → α) (idx : IVec ⟨2, ![M, 1]⟩ w) (e : Fin M) (u : Fin 1) (f : Fin C) :
    Host.gather (gatherRows3 N M C wf) x idx (ix3 e u f)
      = x (ix3 ⟨min (idx (at0 e)).toInt.toNat (N - 1), by omega⟩ u f) := by
  unfold Host.gather
  congr 1
  funext a
  refine Fin.ext ?_
  match a with
  | ⟨0, _⟩ =>
    show (gatherRows3 N M C wf).start (ix3 e u f) idx 0 + (gatherRows3 N M C wf).batchCoord (ix3 e u f) 0
      + (gatherRows3 N M C wf).offCoord (ix3 e u f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (gatherRows3 N M C wf).startIndexMap from List.mem_singleton.mpr rfl)]
    have hsi : (gatherRows3 N M C wf).siIdx (ix3 e u f) ⟨List.idxOf (0 : Fin 3) (gatherRows3 N M C wf).startIndexMap,
        List.idxOf_lt_length_iff.2 (List.mem_singleton.mpr rfl)⟩ = at0 e := by
      funext b; refine Fin.ext ?_
      match b with
      | ⟨0, _⟩ => rfl
      | ⟨1, _⟩ => rfl
    rw [hsi]
    rfl
  | ⟨1, _⟩ =>
    show (gatherRows3 N M C wf).start (ix3 e u f) idx 1 + (gatherRows3 N M C wf).batchCoord (ix3 e u f) 1
      + (gatherRows3 N M C wf).offCoord (ix3 e u f) 1 = u.val
    rw [GatherDims.batchCoord_eq_zero _ _ _ List.not_mem_nil]
    unfold GatherDims.start
    rw [dif_neg (show (1 : Fin 3) ∉ (gatherRows3 N M C wf).startIndexMap from
      (by decide : (1 : Fin 3) ∉ ([0] : List (Fin 3))))]
    simp only [Nat.add_zero, Nat.zero_add]
    unfold GatherDims.offCoord
    rw [dif_pos (show (1 : Fin 3) ∈ (gatherRows3 N M C wf).sKept from
      (GatherDims.mem_sKept _ _).mpr ⟨(by decide : (1 : Fin 3) ∉ ([0] : List (Fin 3))), List.not_mem_nil⟩)]
    rfl
  | ⟨2, _⟩ =>
    show (gatherRows3 N M C wf).start (ix3 e u f) idx 2 + (gatherRows3 N M C wf).batchCoord (ix3 e u f) 2
      + (gatherRows3 N M C wf).offCoord (ix3 e u f) 2 = f.val
    rw [GatherDims.batchCoord_eq_zero _ _ _ List.not_mem_nil]
    unfold GatherDims.start
    rw [dif_neg (show (2 : Fin 3) ∉ (gatherRows3 N M C wf).startIndexMap from
      (by decide : (2 : Fin 3) ∉ ([0] : List (Fin 3))))]
    simp only [Nat.add_zero, Nat.zero_add]
    unfold GatherDims.offCoord
    rw [dif_pos (show (2 : Fin 3) ∈ (gatherRows3 N M C wf).sKept from
      (GatherDims.mem_sKept _ _).mpr ⟨(by decide : (2 : Fin 3) ∉ ([0] : List (Fin 3))), List.not_mem_nil⟩)]
    rfl

/-! ## Unit axes dropped -/

/-- [N, 1, C] → [N, C]: position n·C + f is position (n·1 + 0)·C + f. -/
theorem shapeCast_dropMid_apply {n c : Nat} (x : (⟨3, ![n, 1, c]⟩ : Shape).Idx → α)
    (h : (⟨3, ![n, 1, c]⟩ : Shape).ShapeCasts ⟨2, ![n, c]⟩) (p : Fin n) (r : Fin c) :
    shapeCast ⟨2, ![n, c]⟩ x h (ix2 p r) = x (ix3 p (0 : Fin 1) r) :=
  shapeCast_apply x h (ix2 p r) (ix3 p (0 : Fin 1) r) (by
    rw [Shape.rowMajor_val_two, Shape.rowMajor_val_three]
    show (p.val * 1 + 0) * c + r.val = p.val * c + r.val
    rw [Nat.mul_one, Nat.add_zero])

/-- [a, b, 1] → [a, b]: position p·b + q is position (p·b + q)·1 + 0. -/
theorem shapeCast_dropLast_apply {a b : Nat} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h (ix2 p q) (ix3 p q (0 : Fin 1)) (by
    rw [Shape.rowMajor_val_two, Shape.rowMajor_val_three]
    show (p.val * b + q.val) * 1 + 0 = p.val * b + q.val
    omega)

end Cert.Lib.BlockLayout

end
-- ==== Proof.EdgeMessage.lean ====
/-
  The message of an edge, entry by entry.

  For E edges, M angular components and K channels, from a matrix a of angular factors [E, M], a matrix b of radial
  factors [E, K] and a matrix g of neighbour features [E, KK] with K ≤ KK, the message array [E, M, K] is

      msg (e, m, k) = (a (e, m) · b (e, k)) · g (e, k),

  the product taken in this order, so that nothing but the multiplication itself is used and the definition makes
  sense over the extended reals with no side condition. The same formula describes one block of 400 edges and the
  whole array of 250000: entry (p, m, k) of a block depends on row p of the three blocks only, which is what lets a
  tiling of the edge axis be forgotten.
-/
import Idealize.ShloMosaic.PureOps.Ideal
import Idealize.ShloMosaic.Lib.ValueIdx

noncomputable section

namespace Cert.EdgeMessage

open Idealize.ShloMosaic Idealize.ShloMosaic.ValueIdx

/-- The message array of E edges: (a (e, m) · b (e, k)) · g (e, k) at (e, m, k), channel k of g read among its KK. -/
def edgeMsg {α : Type} [Mul α] {E M K KK : Nat} (hK : K ≤ KK)
    (a : (⟨2, ![E, M]⟩ : Shape).Idx → α) (b : (⟨2, ![E, K]⟩ : Shape).Idx → α) (g : (⟨2, ![E, KK]⟩ : Shape).Idx → α) :
    (⟨3, ![E, M, K]⟩ : Shape).Idx → α := fun i =>
  a (ix2 (⟨(i 0).val, (i 0).isLt⟩ : Fin E) (⟨(i 1).val, (i 1).isLt⟩ : Fin M))
    * b (ix2 (⟨(i 0).val, (i 0).isLt⟩ : Fin E) (⟨(i 2).val, (i 2).isLt⟩ : Fin K))
    * g (ix2 (⟨(i 0).val, (i 0).isLt⟩ : Fin E) (⟨(i 2).val, Nat.lt_of_lt_of_le (i 2).isLt hK⟩ : Fin KK))

/-- The message at an index given by its coordinates. -/
theorem edgeMsg_apply {α : Type} [Mul α] {E M K KK : Nat} (hK : K ≤ KK)
    (a : (⟨2, ![E, M]⟩ : Shape).Idx → α) (b : (⟨2, ![E, K]⟩ : Shape).Idx → α) (g : (⟨2, ![E, KK]⟩ : Shape).Idx → α)
    (e : Fin E) (m : Fin M) (k : Fin K) :
    edgeMsg hK a b g (ix3 e m k) = a (ix2 e m) * b (ix2 e k) * g (ix2 e ⟨k.val, Nat.lt_of_lt_of_le k.isLt hK⟩) := rfl

/-! ## The message from the arguments themselves

The neighbour features are rows of a table of N one-row matrices [N, 1, KK] picked by a list of numbers, one per
edge, laid out [E, 1]: edge e takes the row whose number is entry e of the list read as a signed integer and clamped
into [0, N − 1]. The angular factors come with a trailing unit axis, [E, M, 1]. -/

/-- The table row edge e takes: its number read signed, clamped into [0, N − 1]. -/
def rowOf {E N w : Nat} (hN : 0 < N) (idx : IVec ⟨2, ![E, 1]⟩ w) (e : Fin E) : Fin N :=
  ⟨min (idx (ix2 e (0 : Fin 1))).toInt.toNat (N - 1), by omega⟩

/-- The message array of E edges from the angular array [E, M, 1], the radial matrix [E, K], the feature table
    [N, 1, KK] and the list of row numbers [E, 1]: (sh (e, m, 0) · rb (e, k)) · table (row e, 0, k). -/
def argMsg {α : Type} [Mul α] {E M K KK N w : Nat} (hK : K ≤ KK) (hN : 0 < N)
    (sh : (⟨3, ![E, M, 1]⟩ : Shape).Idx → α) (rb : (⟨2, ![E, K]⟩ : Shape).Idx → α)
    (table : (⟨3, ![N, 1, KK]⟩ : Shape).Idx → α) (idx : IVec ⟨2, ![E, 1]⟩ w) : (⟨3, ![E, M, K]⟩ : Shape).Idx → α :=
  edgeMsg hK
    (fun i => sh (ix3 (⟨(i 0).val, (i 0).isLt⟩ : Fin E) (⟨(i 1).val, (i 1).isLt⟩ : Fin M) (0 : Fin 1)))
    rb
    (fun i => table (ix3 (rowOf hN idx (⟨(i 0).val, (i 0).isLt⟩ : Fin E)) (0 : Fin 1) (⟨(i 1).val, (i 1).isLt⟩ : Fin KK)))

/-- The message from the arguments at an index given by its coordinates. -/
theorem argMsg_apply {α : Type} [Mul α] {E M K KK N w : Nat} (hK : K ≤ KK) (hN : 0 < N)
    (sh : (⟨3, ![E, M, 1]⟩ : Shape).Idx → α) (rb : (⟨2, ![E, K]⟩ : Shape).Idx → α)
    (table : (⟨3, ![N, 1, KK]⟩ : Shape).Idx → α) (idx : IVec ⟨2, ![E, 1]⟩ w) (e : Fin E) (m : Fin M) (k : Fin K) :
    argMsg hK hN sh rb table idx (ix3 e m k)
      = sh (ix3 e m (0 : Fin 1)) * rb (ix2 e k)
          * table (ix3 (rowOf hN idx e) (0 : Fin 1) ⟨k.val, Nat.lt_of_lt_of_le k.isLt hK⟩) := rfl

/-- Two message entries are equal when their three factors are: entry j of the message of (a, b, g) and entry i of
    the message of (A, B, G), possibly of different edge counts, whenever a, b, g at row j₀ and columns j₁, j₂ are
    A, B, G at row i₀ and columns i₁, i₂. -/
theorem edgeMsg_eq_of_factors {α : Type} [Mul α] {E' E M K KK : Nat} (hK : K ≤ KK)
    (a : (⟨2, ![E', M]⟩ : Shape).Idx → α) (b : (⟨2, ![E', K]⟩ : Shape).Idx → α) (g : (⟨2, ![E', KK]⟩ : Shape).Idx → α)
    (A : (⟨2, ![E, M]⟩ : Shape).Idx → α) (B : (⟨2, ![E, K]⟩ : Shape).Idx → α) (G : (⟨2, ![E, KK]⟩ : Shape).Idx → α)
    (j : (⟨3, ![E', M, K]⟩ : Shape).Idx) (i : (⟨3, ![E, M, K]⟩ : Shape).Idx)
    (ha : a (ix2 (⟨(j 0).val, (j 0).isLt⟩ : Fin E') (⟨(j 1).val, (j 1).isLt⟩ : Fin M))
        = A (ix2 (⟨(i 0).val, (i 0).isLt⟩ : Fin E) (⟨(i 1).val, (i 1).isLt⟩ : Fin M)))
    (hb : b (ix2 (⟨(j 0).val, (j 0).isLt⟩ : Fin E') (⟨(j 2).val, (j 2).isLt⟩ : Fin K))
        = B (ix2 (⟨(i 0).val, (i 0).isLt⟩ : Fin E) (⟨(i 2).val, (i 2).isLt⟩ : Fin K)))
    (hg : g (ix2 (⟨(j 0).val, (j 0).isLt⟩ : Fin E') (⟨(j 2).val, Nat.lt_of_lt_of_le (j 2).isLt hK⟩ : Fin KK))
        = G (ix2 (⟨(i 0).val, (i 0).isLt⟩ : Fin E) (⟨(i 2).val, Nat.lt_of_lt_of_le (i 2).isLt hK⟩ : Fin KK))) :
    edgeMsg hK a b g j = edgeMsg hK A B G i := by
  unfold edgeMsg
  rw [ha, hb, hg]

end Cert.EdgeMessage

end
-- ==== Proof.Payloads.lean ====
/-
  What the kernel body stores, as a function of what it loads.

  At one grid point the body loads nine blocks of 400 edges — the four angular blocks [400, 2l+1], the four radial
  blocks [400, k_l] and the neighbour-feature block [400, 256] — and stores four message blocks [400, 2l+1, k_l],
  l = 0 … 3, k_l = 256, 192, 128, 64. Each stored block is the edge message of its three loaded blocks: the angular
  block gets a trailing unit axis and is repeated along the channels, the radial block and the leading k_l columns of
  the feature block get a middle unit axis and are repeated along the angular components, and the three are
  multiplied entry by entry, (angular · radial) · feature.
-/
import proofs.«127102_j21474836480309_2_alg».proof.Proof.Gen.KernelIdeal.Skeleton
import proofs.«127102_j21474836480309_2_alg».proof.Proof.LibBlockLayout
import proofs.«127102_j21474836480309_2_alg».proof.Proof.EdgeMessage

noncomputable section

namespace Cert.KernelIdeal.Payloads

open Idealize.ShloMosaic Idealize.ShloMosaic.ValueIdx Cert.KernelIdeal Cert.KernelIdeal.Gen
open Cert.Lib.BlockLayout Cert.EdgeMessage

/-- l = 0: one angular component, all 256 channels. -/
theorem pay_l0 (g : Vec Ideal S400x256 .f32) (a : Vec Ideal S400x1 .f32) (b : Vec Ideal S400x256 .f32) :
    k0_pay3 (F := Ideal) g a b = edgeMsg (E := 400) (M := 1) (K := 256) (KK := 256) (Nat.le_refl 256) a b g := by
  funext j
  obtain ⟨p, q, r, rfl⟩ : ∃ (p : Fin 400) (q : Fin 1) (r : Fin 256), j = ix3 p q r := ⟨j 0, j 1, j 2, eq_ix3 j⟩
  rw [edgeMsg_apply]
  unfold k0_pay3 k0_pay2
  show broadcastTo S400x1x256 _ _ (ix3 p q r) * shapeCast S400x1x256 _ _ (ix3 p q r) * shapeCast S400x1x256 _ _ (ix3 p q r) = _
  rw [broadcast_last_apply, shapeCast_addLast_apply, shapeCast_addMid_apply, shapeCast_addMid_apply,
    shapeCast_self, shapeCast_self]

/-- l = 1: three angular components, the leading 192 channels. -/
theorem pay_l1 (g : Vec Ideal S400x256 .f32) (a : Vec Ideal S400x3 .f32) (b : Vec Ideal S400x192 .f32) :
    k0_pay4 (F := Ideal) g a b = edgeMsg (E := 400) (M := 3) (K := 192) (KK := 256) (by decide) a b g := by
  funext j
  obtain ⟨p, q, r, rfl⟩ : ∃ (p : Fin 400) (q : Fin 3) (r : Fin 192), j = ix3 p q r := ⟨j 0, j 1, j 2, eq_ix3 j⟩
  rw [edgeMsg_apply]
  unfold k0_pay4 k0_pay2
  show broadcastTo S400x3x192 _ _ (ix3 p q r) * broadcastTo S400x3x192 _ _ (ix3 p q r) * broadcastTo S400x3x192 _ _ (ix3 p q r) = _
  rw [broadcast_last_apply, broadcast_mid_apply, broadcast_mid_apply, shapeCast_addLast_apply, shapeCast_addMid_apply,
    shapeCast_addMid_apply, slice_cols_apply (by decide : 192 ≤ 256), shapeCast_self, shapeCast_self]

/-- l = 2: five angular components, the leading 128 channels. -/
theorem pay_l2 (g : Vec Ideal S400x256 .f32) (a : Vec Ideal S400x5 .f32) (b : Vec Ideal S400x128 .f32) :
    k0_pay5 (F := Ideal) g a b = edgeMsg (E := 400) (M := 5) (K := 128) (KK := 256) (by decide) a b g := by
  funext j
  obtain ⟨p, q, r, rfl⟩ : ∃ (p : Fin 400) (q : Fin 5) (r : Fin 128), j = ix3 p q r := ⟨j 0, j 1, j 2, eq_ix3 j⟩
  rw [edgeMsg_apply]
  unfold k0_pay5 k0_pay2
  show broadcastTo S400x5x128 _ _ (ix3 p q r) * broadcastTo S400x5x128 _ _ (ix3 p q r) * broadcastTo S400x5x128 _ _ (ix3 p q r) = _
  rw [broadcast_last_apply, broadcast_mid_apply, broadcast_mid_apply, shapeCast_addLast_apply, shapeCast_addMid_apply,
    shapeCast_addMid_apply, slice_cols_apply (by decide : 128 ≤ 256), shapeCast_self, shapeCast_self]

/-- l = 3: seven angular components, the leading 64 channels (the feature block enters already cast to itself). -/
theorem pay_l3 (g : Vec Ideal S400x256 .f32) (a : Vec Ideal S400x7 .f32) (b : Vec Ideal S400x64 .f32) :
    k0_pay1 (F := Ideal) (k0_pay2 g) a b = edgeMsg (E := 400) (M := 7) (K := 64) (KK := 256) (by decide) a b g := by
  funext j
  obtain ⟨p, q, r, rfl⟩ : ∃ (p : Fin 400) (q : Fin 7) (r : Fin 64), j = ix3 p q r := ⟨j 0, j 1, j 2, eq_ix3 j⟩
  rw [edgeMsg_apply]
  unfold k0_pay1 k0_pay2
  show broadcastTo S400x7x64 _ _ (ix3 p q r) * broadcastTo S400x7x64 _ _ (ix3 p q r) * broadcastTo S400x7x64 _ _ (ix3 p q r) = _
  rw [broadcast_last_apply, broadcast_mid_apply, broadcast_mid_apply, shapeCast_addLast_apply, shapeCast_addMid_apply,
    shapeCast_addMid_apply, slice_cols_apply (by decide : 64 ≤ 256), shapeCast_self, shapeCast_self]

end Cert.KernelIdeal.Payloads

end
-- ==== Proof.MsgArray0.lean ====
/-
  The message array of order l = 0 after the pallas call: [250000, 1, 256].

  The grid has 625 points; point t stages rows 400·t … 400·t + 399 of the angular matrix [250000, 1], of the radial
  matrix [250000, 256] and of the gathered neighbour features [250000, 256], and writes back rows 400·t … 400·t + 399
  of the message array. What it writes back is the edge message of the three staged blocks, and a block of rows of
  an edge-message array is the edge message of the same rows of its three factors; so point t writes block t of ONE
  array, the edge message of the three whole matrices. The 625 blocks cover the 250000 rows (row r lies in block
  r / 400), so after the run the array IS that edge message.
-/
import proofs.«127102_j21474836480309_2_alg».proof.Proof.BlockReads
import proofs.«127102_j21474836480309_2_alg».proof.Proof.Payloads

set_option maxRecDepth 16384
set_option maxHeartbeats 1000000

noncomputable section

namespace Cert.KernelIdeal.Messages

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payloads Cert.EdgeMessage

variable (m : (ℓ : Loc nD τ sig) → Buf (Elt Ideal) ℓ)

/-- The printed index maps over the grid: the three input windows move with the output window along the edge axis,
    every other block index is 0, and the output's block index along the edge axis is the point's number. -/
theorem idx_facts_l0 : ∀ t : Fin cfg0.N,
    win0_0.index t (0 : Fin 2) = win0_9.index t (0 : Fin 3) ∧ win0_0.index t (1 : Fin 2) = 0
    ∧ win0_4.index t (0 : Fin 2) = win0_9.index t (0 : Fin 3) ∧ win0_4.index t (1 : Fin 2) = 0
    ∧ win0_8.index t (0 : Fin 2) = win0_9.index t (0 : Fin 3) ∧ win0_8.index t (1 : Fin 2) = 0
    ∧ win0_9.index t (1 : Fin 3) = 0 ∧ win0_9.index t (2 : Fin 3) = 0 ∧ win0_9.index t (0 : Fin 3) = t.val :=
  (by decide +kernel : ∀ t : Fin grid0.N, _)

/-- The edge message of the three whole matrices as the region finds them. -/
abbrev msg_l0 (c : Dev nD) : S250000x1x256.Idx → Elt Ideal .f32 :=
  edgeMsg (α := Elt Ideal .f32) (E := 250000) (M := 1) (K := 256) (KK := 256) (Nat.le_refl 256) (V m c main_v0) (V m c main_arg4) (V m c main_v11)

/-- What point t writes back is block t of that array. -/
theorem flushed_l0 (c : Dev nD) (t : Fin cfg0.N) :
    (dats m 0 c).flushed 9 t = ((cfg0.win 9).blk t).view.read (Elt Ideal) (msg_l0 m c) := by
  show (cfg0.win 9).cut (grid0.coords t) ((dats m 0 c).after 9 t) = _
  rw [after0_9]
  unfold out0_9
  rw [View.canon_unit_zero zero3]
  simp only [View.ld_unit_zero (S := S400x256) zero2, View.ld_unit_zero (S := S400x1) zero2]
  rw [pay_l0]
  obtain ⟨e0, e1, e2, e3, e4, e5, e6, e7, e8⟩ := idx_facts_l0 t
  funext j
  have hL : (win0 9).cut (grid0.coords t) (edgeMsg (α := Elt Ideal .f32) (E := 400) (M := 1) (K := 256) (KK := 256) (Nat.le_refl 256) (iblk m c 0 t) (iblk m c 4 t) (iblk m c 8 t)) j
      = edgeMsg (α := Elt Ideal .f32) (E := 400) (M := 1) (K := 256) (KK := 256) (Nat.le_refl 256) (iblk m c 0 t) (iblk m c 4 t) (iblk m c 8 t) j := rfl
  refine hL.trans ?_
  have hR : View.read (Elt Ideal) ((View.whole main_v12_0).slice ((win0 9).rect t)) (msg_l0 m c) j
      = msg_l0 m c (((cfg0.win 9).blk t).view.emb j) := rfl
  refine Eq.trans ?_ hR.symm
  refine edgeMsg_eq_of_factors (α := Elt Ideal .f32) (E' := 400) (E := 250000) (M := 1) (K := 256) (KK := 256) (Nat.le_refl 256)
    (iblk m c 0 t) (iblk m c 4 t) (iblk m c 8 t) (V m c main_v0) (V m c main_arg4) (V m c main_v11) j (((cfg0.win 9).blk t).view.emb j) ?_ ?_ ?_
  · rw [iblk0_apply]
    refine congrArg (V m c main_v0) ?_
    funext a; apply Fin.ext
    match a with
    | ⟨0, _⟩ => show win0_0.index t (0 : Fin 2) * 400 + 1 * (j 0).val = win0_9.index t (0 : Fin 3) * 400 + 1 * (j 0).val; omega
    | ⟨1, _⟩ => show win0_0.index t (1 : Fin 2) * 1 + 1 * (j 1).val = win0_9.index t (1 : Fin 3) * 1 + 1 * (j 1).val; omega
  · rw [iblk4_apply]
    refine congrArg (V m c main_arg4) ?_
    funext a; apply Fin.ext
    match a with
    | ⟨0, _⟩ => show win0_4.index t (0 : Fin 2) * 400 + 1 * (j 0).val = win0_9.index t (0 : Fin 3) * 400 + 1 * (j 0).val; omega
    | ⟨1, _⟩ => show win0_4.index t (1 : Fin 2) * 256 + 1 * (j 2).val = win0_9.index t (2 : Fin 3) * 256 + 1 * (j 2).val; omega
  · rw [iblk8_apply]
    refine congrArg (V m c main_v11) ?_
    funext a; apply Fin.ext
    match a with
    | ⟨0, _⟩ => show win0_8.index t (0 : Fin 2) * 400 + 1 * (j 0).val = win0_9.index t (0 : Fin 3) * 400 + 1 * (j 0).val; omega
    | ⟨1, _⟩ => show win0_8.index t (1 : Fin 2) * 256 + 1 * (j 2).val = win0_9.index t (2 : Fin 3) * 256 + 1 * (j 2).val; omega

/-- An index of the array is in point t's block iff each coordinate is in the block's range on its axis. -/
theorem mem_blk_l0 (t : Fin cfg0.N) (i : S250000x1x256.Idx) :
    i ∈ ((cfg0.win 9).blk t).view.set ↔ ∀ a : Fin 3, win0_9.index t a * S400x1x256.size a ≤ (i a).val ∧ (i a).val < win0_9.index t a * S400x1x256.size a + S400x1x256.size a := by
  show i ∈ ((View.whole main_v12_0).slice (win0_9.rect t)).set ↔ _
  rw [View.set_slice_whole, Rect.mem_set_unit]
  exact Iff.rfl

/-- Every index is in the block of the point numbered by its row divided by 400. -/
theorem cover_l0 (i : S250000x1x256.Idx) :
    ∃ t : Fin cfg0.N, (cfg0.win 9).flush t = true ∧ i ∈ ((cfg0.win 9).blk t).view.set := by
  have hi0 : (i 0).val < 250000 := (i 0).isLt
  have hi1 : (i 1).val < 1 := (i 1).isLt
  have hi2 : (i 2).val < 256 := (i 2).isLt
  have ht : (i 0).val / 400 < cfg0.N := lt_of_lt_of_eq (by omega : (i 0).val / 400 < 625) N_0.symm
  obtain ⟨-, -, -, -, -, -, e6, e7, e8⟩ := idx_facts_l0 ⟨(i 0).val / 400, ht⟩
  have e8' : win0_9.index ⟨(i 0).val / 400, ht⟩ (0 : Fin 3) = (i 0).val / 400 := e8
  refine ⟨⟨(i 0).val / 400, ht⟩, flush0_9 _, ?_⟩
  rw [mem_blk_l0]
  intro a
  match a with
  | ⟨0, _⟩ => show win0_9.index ⟨(i 0).val / 400, ht⟩ (0 : Fin 3) * 400 ≤ (i 0).val ∧ (i 0).val < win0_9.index ⟨(i 0).val / 400, ht⟩ (0 : Fin 3) * 400 + 400; omega
  | ⟨1, _⟩ => show win0_9.index ⟨(i 0).val / 400, ht⟩ (1 : Fin 3) * 1 ≤ (i 1).val ∧ (i 1).val < win0_9.index ⟨(i 0).val / 400, ht⟩ (1 : Fin 3) * 1 + 1; omega
  | ⟨2, _⟩ => show win0_9.index ⟨(i 0).val / 400, ht⟩ (2 : Fin 3) * 256 ≤ (i 2).val ∧ (i 2).val < win0_9.index ⟨(i 0).val / 400, ht⟩ (2 : Fin 3) * 256 + 256; omega

/-- The array after the run is the edge message of the three whole matrices. -/
theorem final_l0 (c : Dev nD) : (dats m 0 c).arrAt 9 cfg0.N = msg_l0 m c :=
  (dats m 0 c).arrAt_eq_of_cover 9 (msg_l0 m c) (fun t _ => flushed_l0 m c t) cover_l0

end Cert.KernelIdeal.Messages

end
-- ==== Proof.MsgArray1.lean ====
/-
  The message array of order l = 1 after the pallas call: [250000, 3, 192].

  The grid has 625 points; point t stages rows 400·t … 400·t + 399 of the angular matrix [250000, 3], of the radial
  matrix [250000, 192] and of the gathered neighbour features [250000, 256], and writes back rows 400·t … 400·t + 399
  of the message array. What it writes back is the edge message of the three staged blocks, and a block of rows of
  an edge-message array is the edge message of the same rows of its three factors; so point t writes block t of ONE
  array, the edge message of the three whole matrices. The 625 blocks cover the 250000 rows (row r lies in block
  r / 400), so after the run the array IS that edge message.
-/
import proofs.«127102_j21474836480309_2_alg».proof.Proof.BlockReads
import proofs.«127102_j21474836480309_2_alg».proof.Proof.Payloads

set_option maxRecDepth 16384
set_option maxHeartbeats 1000000

noncomputable section

namespace Cert.KernelIdeal.Messages

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payloads Cert.EdgeMessage

variable (m : (ℓ : Loc nD τ sig) → Buf (Elt Ideal) ℓ)

/-- The printed index maps over the grid: the three input windows move with the output window along the edge axis,
    every other block index is 0, and the output's block index along the edge axis is the point's number. -/
theorem idx_facts_l1 : ∀ t : Fin cfg0.N,
    win0_1.index t (0 : Fin 2) = win0_10.index t (0 : Fin 3) ∧ win0_1.index t (1 : Fin 2) = 0
    ∧ win0_5.index t (0 : Fin 2) = win0_10.index t (0 : Fin 3) ∧ win0_5.index t (1 : Fin 2) = 0
    ∧ win0_8.index t (0 : Fin 2) = win0_10.index t (0 : Fin 3) ∧ win0_8.index t (1 : Fin 2) = 0
    ∧ win0_10.index t (1 : Fin 3) = 0 ∧ win0_10.index t (2 : Fin 3) = 0 ∧ win0_10.index t (0 : Fin 3) = t.val :=
  (by decide +kernel : ∀ t : Fin grid0.N, _)

/-- The edge message of the three whole matrices as the region finds them. -/
abbrev msg_l1 (c : Dev nD) : S250000x3x192.Idx → Elt Ideal .f32 :=
  edgeMsg (α := Elt Ideal .f32) (E := 250000) (M := 3) (K := 192) (KK := 256) (by decide : 192 ≤ 256) (V m c main_v1) (V m c main_arg5) (V m c main_v11)

/-- What point t writes back is block t of that array. -/
theorem flushed_l1 (c : Dev nD) (t : Fin cfg0.N) :
    (dats m 0 c).flushed 10 t = ((cfg0.win 10).blk t).view.read (Elt Ideal) (msg_l1 m c) := by
  show (cfg0.win 10).cut (grid0.coords t) ((dats m 0 c).after 10 t) = _
  rw [after0_10]
  unfold out0_10
  rw [View.canon_unit_zero zero3]
  simp only [View.ld_unit_zero (S := S400x256) zero2, View.ld_unit_zero (S := S400x3) zero2, View.ld_unit_zero (S := S400x192) zero2]
  rw [pay_l1]
  obtain ⟨e0, e1, e2, e3, e4, e5, e6, e7, e8⟩ := idx_facts_l1 t
  funext j
  have hL : (win0 10).cut (grid0.coords t) (edgeMsg (α := Elt Ideal .f32) (E := 400) (M := 3) (K := 192) (KK := 256) (by decide : 192 ≤ 256) (iblk m c 1 t) (iblk m c 5 t) (iblk m c 8 t)) j
      = edgeMsg (α := Elt Ideal .f32) (E := 400) (M := 3) (K := 192) (KK := 256) (by decide : 192 ≤ 256) (iblk m c 1 t) (iblk m c 5 t) (iblk m c 8 t) j := rfl
  refine hL.trans ?_
  have hR : View.read (Elt Ideal) ((View.whole main_v12_1).slice ((win0 10).rect t)) (msg_l1 m c) j
      = msg_l1 m c (((cfg0.win 10).blk t).view.emb j) := rfl
  refine Eq.trans ?_ hR.symm
  refine edgeMsg_eq_of_factors (α := Elt Ideal .f32) (E' := 400) (E := 250000) (M := 3) (K := 192) (KK := 256) (by decide : 192 ≤ 256)
    (iblk m c 1 t) (iblk m c 5 t) (iblk m c 8 t) (V m c main_v1) (V m c main_arg5) (V m c main_v11) j (((cfg0.win 10).blk t).view.emb j) ?_ ?_ ?_
  · rw [iblk1_apply]
    refine congrArg (V m c main_v1) ?_
    funext a; apply Fin.ext
    match a with
    | ⟨0, _⟩ => show win0_1.index t (0 : Fin 2) * 400 + 1 * (j 0).val = win0_10.index t (0 : Fin 3) * 400 + 1 * (j 0).val; omega
    | ⟨1, _⟩ => show win0_1.index t (1 : Fin 2) * 3 + 1 * (j 1).val = win0_10.index t (1 : Fin 3) * 3 + 1 * (j 1).val; omega
  · rw [iblk5_apply]
    refine congrArg (V m c main_arg5) ?_
    funext a; apply Fin.ext
    match a with
    | ⟨0, _⟩ => show win0_5.index t (0 : Fin 2) * 400 + 1 * (j 0).val = win0_10.index t (0 : Fin 3) * 400 + 1 * (j 0).val; omega
    | ⟨1, _⟩ => show win0_5.index t (1 : Fin 2) * 192 + 1 * (j 2).val = win0_10.index t (2 : Fin 3) * 192 + 1 * (j 2).val; omega
  · rw [iblk8_apply]
    refine congrArg (V m c main_v11) ?_
    funext a; apply Fin.ext
    match a with
    | ⟨0, _⟩ => show win0_8.index t (0 : Fin 2) * 400 + 1 * (j 0).val = win0_10.index t (0 : Fin 3) * 400 + 1 * (j 0).val; omega
    | ⟨1, _⟩ => show win0_8.index t (1 : Fin 2) * 256 + 1 * (j 2).val = win0_10.index t (2 : Fin 3) * 192 + 1 * (j 2).val; omega

/-- An index of the array is in point t's block iff each coordinate is in the block's range on its axis. -/
theorem mem_blk_l1 (t : Fin cfg0.N) (i : S250000x3x192.Idx) :
    i ∈ ((cfg0.win 10).blk t).view.set ↔ ∀ a : Fin 3, win0_10.index t a * S400x3x192.size a ≤ (i a).val ∧ (i a).val < win0_10.index t a * S400x3x192.size a + S400x3x192.size a := by
  show i ∈ ((View.whole main_v12_1).slice (win0_10.rect t)).set ↔ _
  rw [View.set_slice_whole, Rect.mem_set_unit]
  exact Iff.rfl

/-- Every index is in the block of the point numbered by its row divided by 400. -/
theorem cover_l1 (i : S250000x3x192.Idx) :
    ∃ t : Fin cfg0.N, (cfg0.win 10).flush t = true ∧ i ∈ ((cfg0.win 10).blk t).view.set := by
  have hi0 : (i 0).val < 250000 := (i 0).isLt
  have hi1 : (i 1).val < 3 := (i 1).isLt
  have hi2 : (i 2).val < 192 := (i 2).isLt
  have ht : (i 0).val / 400 < cfg0.N := lt_of_lt_of_eq (by omega : (i 0).val / 400 < 625) N_0.symm
  obtain ⟨-, -, -, -, -, -, e6, e7, e8⟩ := idx_facts_l1 ⟨(i 0).val / 400, ht⟩
  have e8' : win0_10.index ⟨(i 0).val / 400, ht⟩ (0 : Fin 3) = (i 0).val / 400 := e8
  refine ⟨⟨(i 0).val / 400, ht⟩, flush0_10 _, ?_⟩
  rw [mem_blk_l1]
  intro a
  match a with
  | ⟨0, _⟩ => show win0_10.index ⟨(i 0).val / 400, ht⟩ (0 : Fin 3) * 400 ≤ (i 0).val ∧ (i 0).val < win0_10.index ⟨(i 0).val / 400, ht⟩ (0 : Fin 3) * 400 + 400; omega
  | ⟨1, _⟩ => show win0_10.index ⟨(i 0).val / 400, ht⟩ (1 : Fin 3) * 3 ≤ (i 1).val ∧ (i 1).val < win0_10.index ⟨(i 0).val / 400, ht⟩ (1 : Fin 3) * 3 + 3; omega
  | ⟨2, _⟩ => show win0_10.index ⟨(i 0).val / 400, ht⟩ (2 : Fin 3) * 192 ≤ (i 2).val ∧ (i 2).val < win0_10.index ⟨(i 0).val / 400, ht⟩ (2 : Fin 3) * 192 + 192; omega

/-- The array after the run is the edge message of the three whole matrices. -/
theorem final_l1 (c : Dev nD) : (dats m 0 c).arrAt 10 cfg0.N = msg_l1 m c :=
  (dats m 0 c).arrAt_eq_of_cover 10 (msg_l1 m c) (fun t _ => flushed_l1 m c t) cover_l1

end Cert.KernelIdeal.Messages

end
-- ==== Proof.MsgArray2.lean ====
/-
  The message array of order l = 2 after the pallas call: [250000, 5, 128].

  The grid has 625 points; point t stages rows 400·t … 400·t + 399 of the angular matrix [250000, 5], of the radial
  matrix [250000, 128] and of the gathered neighbour features [250000, 256], and writes back rows 400·t … 400·t + 399
  of the message array. What it writes back is the edge message of the three staged blocks, and a block of rows of
  an edge-message array is the edge message of the same rows of its three factors; so point t writes block t of ONE
  array, the edge message of the three whole matrices. The 625 blocks cover the 250000 rows (row r lies in block
  r / 400), so after the run the array IS that edge message.
-/
import proofs.«127102_j21474836480309_2_alg».proof.Proof.BlockReads
import proofs.«127102_j21474836480309_2_alg».proof.Proof.Payloads

set_option maxRecDepth 16384
set_option maxHeartbeats 1000000

noncomputable section

namespace Cert.KernelIdeal.Messages

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payloads Cert.EdgeMessage

variable (m : (ℓ : Loc nD τ sig) → Buf (Elt Ideal) ℓ)

/-- The printed index maps over the grid: the three input windows move with the output window along the edge axis,
    every other block index is 0, and the output's block index along the edge axis is the point's number. -/
theorem idx_facts_l2 : ∀ t : Fin cfg0.N,
    win0_2.index t (0 : Fin 2) = win0_11.index t (0 : Fin 3) ∧ win0_2.index t (1 : Fin 2) = 0
    ∧ win0_6.index t (0 : Fin 2) = win0_11.index t (0 : Fin 3) ∧ win0_6.index t (1 : Fin 2) = 0
    ∧ win0_8.index t (0 : Fin 2) = win0_11.index t (0 : Fin 3) ∧ win0_8.index t (1 : Fin 2) = 0
    ∧ win0_11.index t (1 : Fin 3) = 0 ∧ win0_11.index t (2 : Fin 3) = 0 ∧ win0_11.index t (0 : Fin 3) = t.val :=
  (by decide +kernel : ∀ t : Fin grid0.N, _)

/-- The edge message of the three whole matrices as the region finds them. -/
abbrev msg_l2 (c : Dev nD) : S250000x5x128.Idx → Elt Ideal .f32 :=
  edgeMsg (α := Elt Ideal .f32) (E := 250000) (M := 5) (K := 128) (KK := 256) (by decide : 128 ≤ 256) (V m c main_v2) (V m c main_arg6) (V m c main_v11)

/-- What point t writes back is block t of that array. -/
theorem flushed_l2 (c : Dev nD) (t : Fin cfg0.N) :
    (dats m 0 c).flushed 11 t = ((cfg0.win 11).blk t).view.read (Elt Ideal) (msg_l2 m c) := by
  show (cfg0.win 11).cut (grid0.coords t) ((dats m 0 c).after 11 t) = _
  rw [after0_11]
  unfold out0_11
  rw [View.canon_unit_zero zero3]
  simp only [View.ld_unit_zero (S := S400x256) zero2, View.ld_unit_zero (S := S400x5) zero2, View.ld_unit_zero (S := S400x128) zero2]
  rw [pay_l2]
  obtain ⟨e0, e1, e2, e3, e4, e5, e6, e7, e8⟩ := idx_facts_l2 t
  funext j
  have hL : (win0 11).cut (grid0.coords t) (edgeMsg (α := Elt Ideal .f32) (E := 400) (M := 5) (K := 128) (KK := 256) (by decide : 128 ≤ 256) (iblk m c 2 t) (iblk m c 6 t) (iblk m c 8 t)) j
      = edgeMsg (α := Elt Ideal .f32) (E := 400) (M := 5) (K := 128) (KK := 256) (by decide : 128 ≤ 256) (iblk m c 2 t) (iblk m c 6 t) (iblk m c 8 t) j := rfl
  refine hL.trans ?_
  have hR : View.read (Elt Ideal) ((View.whole main_v12_2).slice ((win0 11).rect t)) (msg_l2 m c) j
      = msg_l2 m c (((cfg0.win 11).blk t).view.emb j) := rfl
  refine Eq.trans ?_ hR.symm
  refine edgeMsg_eq_of_factors (α := Elt Ideal .f32) (E' := 400) (E := 250000) (M := 5) (K := 128) (KK := 256) (by decide : 128 ≤ 256)
    (iblk m c 2 t) (iblk m c 6 t) (iblk m c 8 t) (V m c main_v2) (V m c main_arg6) (V m c main_v11) j (((cfg0.win 11).blk t).view.emb j) ?_ ?_ ?_
  · rw [iblk2_apply]
    refine congrArg (V m c main_v2) ?_
    funext a; apply Fin.ext
    match a with
    | ⟨0, _⟩ => show win0_2.index t (0 : Fin 2) * 400 + 1 * (j 0).val = win0_11.index t (0 : Fin 3) * 400 + 1 * (j 0).val; omega
    | ⟨1, _⟩ => show win0_2.index t (1 : Fin 2) * 5 + 1 * (j 1).val = win0_11.index t (1 : Fin 3) * 5 + 1 * (j 1).val; omega
  · rw [iblk6_apply]
    refine congrArg (V m c main_arg6) ?_
    funext a; apply Fin.ext
    match a with
    | ⟨0, _⟩ => show win0_6.index t (0 : Fin 2) * 400 + 1 * (j 0).val = win0_11.index t (0 : Fin 3) * 400 + 1 * (j 0).val; omega
    | ⟨1, _⟩ => show win0_6.index t (1 : Fin 2) * 128 + 1 * (j 2).val = win0_11.index t (2 : Fin 3) * 128 + 1 * (j 2).val; omega
  · rw [iblk8_apply]
    refine congrArg (V m c main_v11) ?_
    funext a; apply Fin.ext
    match a with
    | ⟨0, _⟩ => show win0_8.index t (0 : Fin 2) * 400 + 1 * (j 0).val = win0_11.index t (0 : Fin 3) * 400 + 1 * (j 0).val; omega
    | ⟨1, _⟩ => show win0_8.index t (1 : Fin 2) * 256 + 1 * (j 2).val = win0_11.index t (2 : Fin 3) * 128 + 1 * (j 2).val; omega

/-- An index of the array is in point t's block iff each coordinate is in the block's range on its axis. -/
theorem mem_blk_l2 (t : Fin cfg0.N) (i : S250000x5x128.Idx) :
    i ∈ ((cfg0.win 11).blk t).view.set ↔ ∀ a : Fin 3, win0_11.index t a * S400x5x128.size a ≤ (i a).val ∧ (i a).val < win0_11.index t a * S400x5x128.size a + S400x5x128.size a := by
  show i ∈ ((View.whole main_v12_2).slice (win0_11.rect t)).set ↔ _
  rw [View.set_slice_whole, Rect.mem_set_unit]
  exact Iff.rfl

/-- Every index is in the block of the point numbered by its row divided by 400. -/
theorem cover_l2 (i : S250000x5x128.Idx) :
    ∃ t : Fin cfg0.N, (cfg0.win 11).flush t = true ∧ i ∈ ((cfg0.win 11).blk t).view.set := by
  have hi0 : (i 0).val < 250000 := (i 0).isLt
  have hi1 : (i 1).val < 5 := (i 1).isLt
  have hi2 : (i 2).val < 128 := (i 2).isLt
  have ht : (i 0).val / 400 < cfg0.N := lt_of_lt_of_eq (by omega : (i 0).val / 400 < 625) N_0.symm
  obtain ⟨-, -, -, -, -, -, e6, e7, e8⟩ := idx_facts_l2 ⟨(i 0).val / 400, ht⟩
  have e8' : win0_11.index ⟨(i 0).val / 400, ht⟩ (0 : Fin 3) = (i 0).val / 400 := e8
  refine ⟨⟨(i 0).val / 400, ht⟩, flush0_11 _, ?_⟩
  rw [mem_blk_l2]
  intro a
  match a with
  | ⟨0, _⟩ => show win0_11.index ⟨(i 0).val / 400, ht⟩ (0 : Fin 3) * 400 ≤ (i 0).val ∧ (i 0).val < win0_11.index ⟨(i 0).val / 400, ht⟩ (0 : Fin 3) * 400 + 400; omega
  | ⟨1, _⟩ => show win0_11.index ⟨(i 0).val / 400, ht⟩ (1 : Fin 3) * 5 ≤ (i 1).val ∧ (i 1).val < win0_11.index ⟨(i 0).val / 400, ht⟩ (1 : Fin 3) * 5 + 5; omega
  | ⟨2, _⟩ => show win0_11.index ⟨(i 0).val / 400, ht⟩ (2 : Fin 3) * 128 ≤ (i 2).val ∧ (i 2).val < win0_11.index ⟨(i 0).val / 400, ht⟩ (2 : Fin 3) * 128 + 128; omega

/-- The array after the run is the edge message of the three whole matrices. -/
theorem final_l2 (c : Dev nD) : (dats m 0 c).arrAt 11 cfg0.N = msg_l2 m c :=
  (dats m 0 c).arrAt_eq_of_cover 11 (msg_l2 m c) (fun t _ => flushed_l2 m c t) cover_l2

end Cert.KernelIdeal.Messages

end
-- ==== Proof.MsgArray3.lean ====
/-
  The message array of order l = 3 after the pallas call: [250000, 7, 64].

  The grid has 625 points; point t stages rows 400·t … 400·t + 399 of the angular matrix [250000, 7], of the radial
  matrix [250000, 64] and of the gathered neighbour features [250000, 256], and writes back rows 400·t … 400·t + 399
  of the message array. What it writes back is the edge message of the three staged blocks, and a block of rows of
  an edge-message array is the edge message of the same rows of its three factors; so point t writes block t of ONE
  array, the edge message of the three whole matrices. The 625 blocks cover the 250000 rows (row r lies in block
  r / 400), so after the run the array IS that edge message.
-/
import proofs.«127102_j21474836480309_2_alg».proof.Proof.BlockReads
import proofs.«127102_j21474836480309_2_alg».proof.Proof.Payloads

set_option maxRecDepth 16384
set_option maxHeartbeats 1000000

noncomputable section

namespace Cert.KernelIdeal.Messages

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payloads Cert.EdgeMessage

variable (m : (ℓ : Loc nD τ sig) → Buf (Elt Ideal) ℓ)

/-- The printed index maps over the grid: the three input windows move with the output window along the edge axis,
    every other block index is 0, and the output's block index along the edge axis is the point's number. -/
theorem idx_facts_l3 : ∀ t : Fin cfg0.N,
    win0_3.index t (0 : Fin 2) = win0_12.index t (0 : Fin 3) ∧ win0_3.index t (1 : Fin 2) = 0
    ∧ win0_7.index t (0 : Fin 2) = win0_12.index t (0 : Fin 3) ∧ win0_7.index t (1 : Fin 2) = 0
    ∧ win0_8.index t (0 : Fin 2) = win0_12.index t (0 : Fin 3) ∧ win0_8.index t (1 : Fin 2) = 0
    ∧ win0_12.index t (1 : Fin 3) = 0 ∧ win0_12.index t (2 : Fin 3) = 0 ∧ win0_12.index t (0 : Fin 3) = t.val :=
  (by decide +kernel : ∀ t : Fin grid0.N, _)

/-- The edge message of the three whole matrices as the region finds them. -/
abbrev msg_l3 (c : Dev nD) : S250000x7x64.Idx → Elt Ideal .f32 :=
  edgeMsg (α := Elt Ideal .f32) (E := 250000) (M := 7) (K := 64) (KK := 256) (by decide : 64 ≤ 256) (V m c main_v3) (V m c main_arg7) (V m c main_v11)

/-- What point t writes back is block t of that array. -/
theorem flushed_l3 (c : Dev nD) (t : Fin cfg0.N) :
    (dats m 0 c).flushed 12 t = ((cfg0.win 12).blk t).view.read (Elt Ideal) (msg_l3 m c) := by
  show (cfg0.win 12).cut (grid0.coords t) ((dats m 0 c).after 12 t) = _
  rw [after0_12]
  unfold out0_12
  rw [View.canon_unit_zero zero3]
  simp only [View.ld_unit_zero (S := S400x256) zero2, View.ld_unit_zero (S := S400x7) zero2, View.ld_unit_zero (S := S400x64) zero2]
  rw [pay_l3]
  obtain ⟨e0, e1, e2, e3, e4, e5, e6, e7, e8⟩ := idx_facts_l3 t
  funext j
  have hL : (win0 12).cut (grid0.coords t) (edgeMsg (α := Elt Ideal .f32) (E := 400) (M := 7) (K := 64) (KK := 256) (by decide : 64 ≤ 256) (iblk m c 3 t) (iblk m c 7 t) (iblk m c 8 t)) j
      = edgeMsg (α := Elt Ideal .f32) (E := 400) (M := 7) (K := 64) (KK := 256) (by decide : 64 ≤ 256) (iblk m c 3 t) (iblk m c 7 t) (iblk m c 8 t) j := rfl
  refine hL.trans ?_
  have hR : View.read (Elt Ideal) ((View.whole main_v12_3).slice ((win0 12).rect t)) (msg_l3 m c) j
      = msg_l3 m c (((cfg0.win 12).blk t).view.emb j) := rfl
  refine Eq.trans ?_ hR.symm
  refine edgeMsg_eq_of_factors (α := Elt Ideal .f32) (E' := 400) (E := 250000) (M := 7) (K := 64) (KK := 256) (by decide : 64 ≤ 256)
    (iblk m c 3 t) (iblk m c 7 t) (iblk m c 8 t) (V m c main_v3) (V m c main_arg7) (V m c main_v11) j (((cfg0.win 12).blk t).view.emb j) ?_ ?_ ?_
  · rw [iblk3_apply]
    refine congrArg (V m c main_v3) ?_
    funext a; apply Fin.ext
    match a with
    | ⟨0, _⟩ => show win0_3.index t (0 : Fin 2) * 400 + 1 * (j 0).val = win0_12.index t (0 : Fin 3) * 400 + 1 * (j 0).val; omega
    | ⟨1, _⟩ => show win0_3.index t (1 : Fin 2) * 7 + 1 * (j 1).val = win0_12.index t (1 : Fin 3) * 7 + 1 * (j 1).val; omega
  · rw [iblk7_apply]
    refine congrArg (V m c main_arg7) ?_
    funext a; apply Fin.ext
    match a with
    | ⟨0, _⟩ => show win0_7.index t (0 : Fin 2) * 400 + 1 * (j 0).val = win0_12.index t (0 : Fin 3) * 400 + 1 * (j 0).val; omega
    | ⟨1, _⟩ => show win0_7.index t (1 : Fin 2) * 64 + 1 * (j 2).val = win0_12.index t (2 : Fin 3) * 64 + 1 * (j 2).val; omega
  · rw [iblk8_apply]
    refine congrArg (V m c main_v11) ?_
    funext a; apply Fin.ext
    match a with
    | ⟨0, _⟩ => show win0_8.index t (0 : Fin 2) * 400 + 1 * (j 0).val = win0_12.index t (0 : Fin 3) * 400 + 1 * (j 0).val; omega
    | ⟨1, _⟩ => show win0_8.index t (1 : Fin 2) * 256 + 1 * (j 2).val = win0_12.index t (2 : Fin 3) * 64 + 1 * (j 2).val; omega

/-- An index of the array is in point t's block iff each coordinate is in the block's range on its axis. -/
theorem mem_blk_l3 (t : Fin cfg0.N) (i : S250000x7x64.Idx) :
    i ∈ ((cfg0.win 12).blk t).view.set ↔ ∀ a : Fin 3, win0_12.index t a * S400x7x64.size a ≤ (i a).val ∧ (i a).val < win0_12.index t a * S400x7x64.size a + S400x7x64.size a := by
  show i ∈ ((View.whole main_v12_3).slice (win0_12.rect t)).set ↔ _
  rw [View.set_slice_whole, Rect.mem_set_unit]
  exact Iff.rfl

/-- Every index is in the block of the point numbered by its row divided by 400. -/
theorem cover_l3 (i : S250000x7x64.Idx) :
    ∃ t : Fin cfg0.N, (cfg0.win 12).flush t = true ∧ i ∈ ((cfg0.win 12).blk t).view.set := by
  have hi0 : (i 0).val < 250000 := (i 0).isLt
  have hi1 : (i 1).val < 7 := (i 1).isLt
  have hi2 : (i 2).val < 64 := (i 2).isLt
  have ht : (i 0).val / 400 < cfg0.N := lt_of_lt_of_eq (by omega : (i 0).val / 400 < 625) N_0.symm
  obtain ⟨-, -, -, -, -, -, e6, e7, e8⟩ := idx_facts_l3 ⟨(i 0).val / 400, ht⟩
  have e8' : win0_12.index ⟨(i 0).val / 400, ht⟩ (0 : Fin 3) = (i 0).val / 400 := e8
  refine ⟨⟨(i 0).val / 400, ht⟩, flush0_12 _, ?_⟩
  rw [mem_blk_l3]
  intro a
  match a with
  | ⟨0, _⟩ => show win0_12.index ⟨(i 0).val / 400, ht⟩ (0 : Fin 3) * 400 ≤ (i 0).val ∧ (i 0).val < win0_12.index ⟨(i 0).val / 400, ht⟩ (0 : Fin 3) * 400 + 400; omega
  | ⟨1, _⟩ => show win0_12.index ⟨(i 0).val / 400, ht⟩ (1 : Fin 3) * 7 ≤ (i 1).val ∧ (i 1).val < win0_12.index ⟨(i 0).val / 400, ht⟩ (1 : Fin 3) * 7 + 7; omega
  | ⟨2, _⟩ => show win0_12.index ⟨(i 0).val / 400, ht⟩ (2 : Fin 3) * 64 ≤ (i 2).val ∧ (i 2).val < win0_12.index ⟨(i 0).val / 400, ht⟩ (2 : Fin 3) * 64 + 64; omega

/-- The array after the run is the edge message of the three whole matrices. -/
theorem final_l3 (c : Dev nD) : (dats m 0 c).arrAt 12 cfg0.N = msg_l3 m c :=
  (dats m 0 c).arrAt_eq_of_cover 12 (msg_l3 m c) (fun t _ => flushed_l3 m c t) cover_l3

end Cert.KernelIdeal.Messages

end
-- ==== Proof.LibRowOps.lean ====
/-
  Rows picked by an integer array: the two StableHLO forms that `x[idx]` and `segment_sum(v, idx)` lower to when
  `idx` is a flat list of M row numbers laid out as an [M, 1] array of start indices.

  * A GATHER of whole rows: of a vector [N] (result [M]) and of a matrix [N, C] (result [M, C]). Result row `e` is
    the operand's row number `idx[e, 0]`, the number read as a signed integer and clamped into [0, N − 1].
  * An accumulating SCATTER of rows into a matrix [N, C] from updates [M, C]: update element (e, f) is added to
    operand element (idx[e, 0], f), the number read signed and NOT clamped; an update whose row number falls outside
    [0, N) is dropped. At the exact reading of floats the result element is the operand element plus the finite sum of
    the update elements that land on it, so multiplying every landing update by a number that depends only on the
    landing row is multiplying the sum by it — provided that number is a nonnegative real, which is what lets a product
    distribute over a sum of extended reals.
-/
import Idealize.ShloMosaic.PureOps.Ideal
import Idealize.ShloMosaic.Lib.ValueIdx

noncomputable section

open scoped BigOperators

namespace Cert.Lib.RowOps

open Idealize.ShloMosaic Idealize.ShloMosaic.ValueIdx

/-! ## The dimension numbers -/

/-- Gather of entries of a vector [N] at start indices [M, 1]: the one operand axis collapsed, the start index's
    one component naming it, the index vector on axis 1. -/
abbrev gatherRows1 (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Gather of whole rows of a matrix [N, C] at start indices [M, 1]: the row axis collapsed and named by the start
    index, the column axis an offset axis of full extent. -/
abbrev gatherRows2 (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Scatter of rows [M, C] into a matrix [N, C] at scatter indices [M, 1]: the row axis inserted and named by the
    index, the column axis a window axis. -/
abbrev scatterRows2 (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The place of row number `e` in the [M, 1] array of indices. -/
abbrev at0 {M : Nat} (e : Fin M) : (⟨2, ![M, 1]⟩ : Shape).Idx := ix2 e (0 : Fin 1)

/-! ## The gathers read at an index -/

/-- Entry `e` of the gathered vector is the operand at the start index read signed and clamped into [0, N − 1]. -/
theorem gatherRows1_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gatherRows1 N M wf) x idx (ix1 e)
      = x (ix1 ⟨min (idx (at0 e)).toInt.toNat (N - 1), by omega⟩) := by
  -- the operand index has one coordinate: the clamped start, with no batching and no offset part
  unfold Host.gather
  congr 1
  funext a
  obtain rfl : a = 0 := Subsingleton.elim _ _
  refine Fin.ext ?_
  show (gatherRows1 N M wf).start (ix1 e) idx 0 + (gatherRows1 N M wf).batchCoord (ix1 e) 0
    + (gatherRows1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherRows1 N M wf).startIndexMap from List.mem_singleton.mpr rfl)]
  have hsi : (gatherRows1 N M wf).siIdx (ix1 e) ⟨List.idxOf (0 : Fin 1) (gatherRows1 N M wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

/-- Element (e, f) of the gathered matrix is the operand's element in column `f` of the row the start index names,
    read signed and clamped into [0, N − 1]. -/
theorem gatherRows2_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (gatherRows2 N M C wf) x idx (ix2 e f)
      = x (ix2 ⟨min (idx (at0 e)).toInt.toNat (N - 1), by omega⟩ f) := by
  unfold Host.gather
  congr 1
  funext a
  refine Fin.ext ?_
  match a with
  -- row axis: the clamped start alone; column axis: start 0 plus the offset coordinate f
  | ⟨0, _⟩ =>
    show (gatherRows2 N M C wf).start (ix2 e f) idx 0 + (gatherRows2 N M C wf).batchCoord (ix2 e f) 0
      + (gatherRows2 N M C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows2 N M C wf).startIndexMap from List.mem_singleton.mpr rfl)]
    have hsi : (gatherRows2 N M C wf).siIdx (ix2 e f) ⟨List.idxOf (0 : Fin 2) (gatherRows2 N M C wf).startIndexMap,
        List.idxOf_lt_length_iff.2 (List.mem_singleton.mpr rfl)⟩ = at0 e := by
      funext b; refine Fin.ext ?_
      match b with
      | ⟨0, _⟩ => rfl
      | ⟨1, _⟩ => rfl
    rw [hsi]
    rfl
  | ⟨1, _⟩ =>
    show (gatherRows2 N M C wf).start (ix2 e f) idx 1 + (gatherRows2 N M C wf).batchCoord (ix2 e f) 1
      + (gatherRows2 N M C wf).offCoord (ix2 e f) 1 = f.val
    rw [GatherDims.batchCoord_eq_zero _ _ _ List.not_mem_nil]
    unfold GatherDims.start
    rw [dif_neg (show (1 : Fin 2) ∉ (gatherRows2 N M C wf).startIndexMap from
      (by decide : (1 : Fin 2) ∉ ([0] : List (Fin 2))))]
    simp only [Nat.add_zero, Nat.zero_add]
    unfold GatherDims.offCoord
    rw [dif_pos (show (1 : Fin 2) ∈ (gatherRows2 N M C wf).sKept from
      (GatherDims.mem_sKept _ _).mpr ⟨(by decide : (1 : Fin 2) ∉ ([0] : List (Fin 2))), List.not_mem_nil⟩)]
    rfl

/-! ## Where an update lands -/

/-- Update element (e, f) lands on operand element (i, f') exactly when the index of row `e`, read signed, is `i`
    and the columns agree. -/
theorem scatterRows2_lands {N M C w : Nat}
    (wf : ScatterDims.WF ⟨2, ![N, C]⟩ ⟨2, ![M, 1]⟩ ⟨2, ![M, C]⟩ [1] [0] [0] 1)
    (idx : IVec ⟨2, ![M, 1]⟩ w) (e : Fin M) (f : Fin C) (i : Fin N) (f' : Fin C) :
    (scatterRows2 N M C wf).resultIdx? (ix2 e f) idx = some (ix2 i f')
      ↔ (idx (at0 e)).toInt = (i.val : Int) ∧ f = f' := by
  -- on the row axis: start = the signed index, window = 0; on the column axis: start = 0, window = f
  have h00 : (scatterRows2 N M C wf).start (ix2 e f) idx 0 = (idx (at0 e)).toInt := by
    unfold ScatterDims.start
    rw [dif_pos (show (0 : Fin 2) ∈ (scatterRows2 N M C wf).scatterDimsToOperandDims from List.mem_singleton.mpr rfl)]
    have hsi : (scatterRows2 N M C wf).siIdx (ix2 e f) ⟨List.idxOf (0 : Fin 2) (scatterRows2 N M C wf).scatterDimsToOperandDims,
        List.idxOf_lt_length_iff.2 (List.mem_singleton.mpr rfl)⟩ = at0 e := by
      funext b; refine Fin.ext ?_
      match b with
      | ⟨0, _⟩ => rfl
      | ⟨1, _⟩ => rfl
    rw [hsi]
  have hw0 : (scatterRows2 N M C wf).window (ix2 e f) 0 = 0 := by
    unfold ScatterDims.window
    rw [dif_neg (show (0 : Fin 2) ∉ (scatterRows2 N M C wf).sKept from
      (by decide : (0 : Fin 2) ∉ (List.finRange 2).filter (fun a => a ∉ ([0] : List (Fin 2)))))]
  have hs1 : (scatterRows2 N M C wf).start (ix2 e f) idx 1 = 0 := by
    unfold ScatterDims.start
    rw [dif_neg (show (1 : Fin 2) ∉ (scatterRows2 N M C wf).scatterDimsToOperandDims from
      (by decide : (1 : Fin 2) ∉ ([0] : List (Fin 2))))]
  have hw1 : (scatterRows2 N M C wf).window (ix2 e f) 1 = f.val := by
    unfold ScatterDims.window
    rw [dif_pos (show (1 : Fin 2) ∈ (scatterRows2 N M C wf).sKept from
      (by decide : (1 : Fin 2) ∈ (List.finRange 2).filter (fun a => a ∉ ([0] : List (Fin 2)))))]
    rfl
  unfold ScatterDims.resultIdx?
  split
  · rename_i h
    rw [Option.some.injEq]
    constructor
    · intro hg
      have g0 : ((scatterRows2 N M C wf).start (ix2 e f) idx 0 + ((scatterRows2 N M C wf).window (ix2 e f) 0 : ℕ)).toNat = i.val := congrArg Fin.val (congrFun hg 0)
      have g1 : ((scatterRows2 N M C wf).start (ix2 e f) idx 1 + ((scatterRows2 N M C wf).window (ix2 e f) 1 : ℕ)).toNat = f'.val := congrArg Fin.val (congrFun hg 1)
      have k0 := (h 0).1
      rw [h00, hw0] at g0 k0
      rw [hs1, hw1] at g1
      exact ⟨by omega, Fin.ext (by omega)⟩
    · rintro ⟨hi, rfl⟩
      funext a
      refine Fin.ext ?_
      match a with
      | ⟨0, _⟩ =>
        show ((scatterRows2 N M C wf).start (ix2 e f) idx 0 + ((scatterRows2 N M C wf).window (ix2 e f) 0 : ℕ)).toNat = i.val
        rw [h00, hw0]; omega
      | ⟨1, _⟩ =>
        show ((scatterRows2 N M C wf).start (ix2 e f) idx 1 + ((scatterRows2 N M C wf).window (ix2 e f) 1 : ℕ)).toNat = f.val
        rw [hs1, hw1]; omega
  · rename_i h
    constructor
    · intro hg; cases hg
    · rintro ⟨hi, rfl⟩
      exfalso; apply h
      intro a
      match a with
      | ⟨0, _⟩ =>
        show 0 ≤ (scatterRows2 N M C wf).start (ix2 e f) idx 0 + ((scatterRows2 N M C wf).window (ix2 e f) 0 : ℕ) ∧ (scatterRows2 N M C wf).start (ix2 e f) idx 0 + ((scatterRows2 N M C wf).window (ix2 e f) 0 : ℕ) < (N : ℤ)
        rw [h00, hw0]; have := i.isLt; omega
      | ⟨1, _⟩ =>
        show 0 ≤ (scatterRows2 N M C wf).start (ix2 e f) idx 1 + ((scatterRows2 N M C wf).window (ix2 e f) 1 : ℕ) ∧ (scatterRows2 N M C wf).start (ix2 e f) idx 1 + ((scatterRows2 N M C wf).window (ix2 e f) 1 : ℕ) < (C : ℤ)
        rw [hs1, hw1]; have := f.isLt; omega

/-! ## Scaling the rows that land -/

/-- A finite sum of extended reals times a nonnegative real is the sum of the products. -/
theorem sum_mul_of_nonneg_ne_top {ι : Type} (s : Finset ι) (a : ι → EReal) {c : EReal} (h0 : 0 ≤ c) (ht : c ≠ ⊤) :
    (∑ j ∈ s, a j) * c = ∑ j ∈ s, a j * c := by
  classical
  induction s using Finset.induction_on with
  | empty => rw [Finset.sum_empty, Finset.sum_empty, zero_mul]
  | insert j s hj ih =>
    rw [Finset.sum_insert hj, Finset.sum_insert hj, EReal.right_distrib_of_nonneg_of_ne_top h0 ht, ih]

/-- THE LAW. Scatter-add rows into a zero matrix and then scale result row `i` by `c i`; or scale every update
    row by `c` gathered at the (wrapped, clamped) index of the row it lands on, and then scatter-add: the same matrix,
    when every `c i` is a nonnegative real and the gather's indices `idxG` agree with the scatter's `idxS` wherever
    the latter is not negative (a gather clamps and a scatter drops, so only rows that land matter). -/
theorem scatterRows2_scale {N M C : Nat} (hN : 0 < N)
    (wfS : ScatterDims.WF ⟨2, ![N, C]⟩ ⟨2, ![M, 1]⟩ ⟨2, ![M, C]⟩ [1] [0] [0] 1)
    (wfG : GatherDims.WF ⟨1, ![N]⟩ ⟨2, ![M, 1]⟩ ⟨1, ![M]⟩ [] [0] [] [0] [] 1 ![1])
    (c : (⟨1, ![N]⟩ : Shape).Idx → EReal) (hc : ∀ i, 0 ≤ c i ∧ c i ≠ ⊤)
    (idxS idxG : IVec ⟨2, ![M, 1]⟩ 32)
    (hidx : ∀ e : Fin M, 0 ≤ (idxS (at0 e)).toInt → idxG (at0 e) = idxS (at0 e))
    (a : (⟨2, ![M, C]⟩ : Shape).Idx → EReal) (i : (⟨2, ![N, C]⟩ : Shape).Idx) :
    Ideal.hostScatterAdd (scatterRows2 N M C wfS) (fun _ => 0) idxS a i * c (ix1 (i 0))
      = Ideal.hostScatterAdd (scatterRows2 N M C wfS) (fun _ => 0) idxS
          (fun j => a j * Host.gather (gatherRows1 N M wfG) c idxG (ix1 (j 0))) i := by
  obtain ⟨i0, f', rfl⟩ : ∃ (i0 : Fin N) (f' : Fin C), i = ix2 i0 f' := ⟨i 0, i 1, eq_ix2 i⟩
  unfold Ideal.hostScatterAdd
  simp only [zero_add]
  rw [sum_mul_of_nonneg_ne_top _ _ (hc _).1 (hc _).2]
  -- term by term: an update that lands on row i0 has signed index i0, so its gathered factor is c i0
  refine Finset.sum_congr rfl ?_
  intro j hj
  obtain ⟨e, f, rfl⟩ : ∃ (e : Fin M) (f : Fin C), j = ix2 e f := ⟨j 0, j 1, eq_ix2 j⟩
  have hl := (scatterRows2_lands wfS idxS e f i0 f').mp (Finset.mem_filter.mp hj).2
  have hnn : 0 ≤ (idxS (at0 e)).toInt := by rw [hl.1]; exact Int.natCast_nonneg _
  have hG := hidx e hnn
  have hi0 : (⟨min (idxG (at0 e)).toInt.toNat (N - 1), by omega⟩ : Fin N) = i0 :=
    Fin.ext (by
      have h1 := i0.isLt
      have h2 := hl.1
      show min (idxG (at0 e)).toInt.toNat (N - 1) = i0.val
      rw [hG]; omega)
  show a (ix2 e f) * c (ix1 i0) = a (ix2 e f) * Host.gather (gatherRows1 N M wfG) c idxG (ix1 e)
  rw [gatherRows1_apply hN wfG c idxG e, hi0]

end Cert.Lib.RowOps

end
-- ==== Proof.HostGlue.lean ====
/-
  The arrays the pallas call finds, in terms of the program's arguments.

  Before the call the host drops the trailing unit axis of each angular array ([250000, 2l+1, 1] → [250000, 2l+1]),
  drops the middle unit axis of the feature table ([10000, 1, 256] → [10000, 256]), normalises the list of neighbour
  numbers (a negative number is moved up by 10000) and lays it out [250000, 1], and gathers one table row per edge,
  [250000, 256]. Read at an index: the squeezed angular array at (e, q) is the argument at (e, q, 0), and the
  gathered matrix at (e, f) is the table at (row e, 0, f), row e the number of edge e read signed and clamped into
  [0, 9999]. With these, the edge message of the arrays the call finds is the message of the arguments themselves.
-/
import proofs.«127102_j21474836480309_2_alg».proof.Proof.Gen.KernelIdeal.Frame
import proofs.«127102_j21474836480309_2_alg».proof.Proof.LibRowOps
import proofs.«127102_j21474836480309_2_alg».proof.Proof.LibBlockLayout
import proofs.«127102_j21474836480309_2_alg».proof.Proof.EdgeMessage
import Idealize.ShloMosaic.Lib.StableHlo.Run
import Idealize.ShloMosaic.Lib.ValueIdx
import Idealize.ShloMosaic.PureOps.Ideal

noncomputable section

namespace Cert.KernelIdeal.HostGlue

open Idealize.ShloMosaic Idealize.ShloMosaic.TcCoe Idealize.ShloMosaic.ValueIdx Idealize.SL.Sem Idealize.ShloMosaic.StableHlo
open Cert.KernelIdeal Cert.KernelIdeal.Gen Cert.Lib.BlockLayout Cert.EdgeMessage

variable (m : (ℓ : Loc nD τ sig) → Buf (Elt Ideal) ℓ)

/-- The list of neighbour numbers as the gather reads it: a negative number moved up by 10000, laid out [250000, 1]. -/
def nbrIdx (x10 : IVec S250000 32) : IVec S250000x1 32 :=
  broadcastInDim S250000x1 ![0] bcast_S250000_S250000x1_0
    (select (cmpi .slt x10 (broadcastInDim S250000 ![] bcast_S_S250000 (constantI S_ 32 0#32)))
      (addi x10 (broadcastInDim S250000 ![] bcast_S_S250000 (constantI S_ 32 10000#32))) x10)

/-! ## What the host operations before the call leave -/

theorem V_v0 (c : Dev nD) : (V m c main_v0 : S250000x1.Idx → Elt Ideal .f32)
    = shapeCast S250000x1 (m ((c : Thread nD τ).loc main_arg0)) shapeCasts_S250000x1x1_S250000x1 := by
  show StableHlo.after hostOps0 (fun b => m (c, b)) (Proc.devRef .tc main_v0) = _
  after_results
  rfl

theorem V_v1 (c : Dev nD) : (V m c main_v1 : S250000x3.Idx → Elt Ideal .f32)
    = shapeCast S250000x3 (m ((c : Thread nD τ).loc main_arg1)) shapeCasts_S250000x3x1_S250000x3 := by
  show StableHlo.after hostOps0 (fun b => m (c, b)) (Proc.devRef .tc main_v1) = _
  after_results
  rfl

theorem V_v2 (c : Dev nD) : (V m c main_v2 : S250000x5.Idx → Elt Ideal .f32)
    = shapeCast S250000x5 (m ((c : Thread nD τ).loc main_arg2)) shapeCasts_S250000x5x1_S250000x5 := by
  show StableHlo.after hostOps0 (fun b => m (c, b)) (Proc.devRef .tc main_v2) = _
  after_results
  rfl

theorem V_v3 (c : Dev nD) : (V m c main_v3 : S250000x7.Idx → Elt Ideal .f32)
    = shapeCast S250000x7 (m ((c : Thread nD τ).loc main_arg3)) shapeCasts_S250000x7x1_S250000x7 := by
  show StableHlo.after hostOps0 (fun b => m (c, b)) (Proc.devRef .tc main_v3) = _
  after_results
  rfl

theorem V_v11 (c : Dev nD) : (V m c main_v11 : S250000x256.Idx → Elt Ideal .f32)
    = Host.gather gather_S10000x256_S250000x1_S250000x256_1_0_n_n_0_1_1256
        (shapeCast S10000x256 (m ((c : Thread nD τ).loc main_arg8)) shapeCasts_S10000x1x256_S10000x256)
        (nbrIdx (m ((c : Thread nD τ).loc main_arg10))) := by
  show StableHlo.after hostOps0 (fun b => m (c, b)) (Proc.devRef .tc main_v11) = _
  after_results
  rfl

/-! ## The same, at an index -/

theorem V_v0_fun (c : Dev nD) : (V m c main_v0 : S250000x1.Idx → Elt Ideal .f32)
    = fun i => m ((c : Thread nD τ).loc main_arg0) (ix3 (⟨(i 0).val, (i 0).isLt⟩ : Fin 250000) (⟨(i 1).val, (i 1).isLt⟩ : Fin 1) (0 : Fin 1)) := by
  rw [V_v0]
  funext i
  obtain ⟨e, q, rfl⟩ : ∃ (e : Fin 250000) (q : Fin 1), i = ix2 e q := ⟨i 0, i 1, eq_ix2 i⟩
  exact shapeCast_dropLast_apply _ _ e q

theorem V_v1_fun (c : Dev nD) : (V m c main_v1 : S250000x3.Idx → Elt Ideal .f32)
    = fun i => m ((c : Thread nD τ).loc main_arg1) (ix3 (⟨(i 0).val, (i 0).isLt⟩ : Fin 250000) (⟨(i 1).val, (i 1).isLt⟩ : Fin 3) (0 : Fin 1)) := by
  rw [V_v1]
  funext i
  obtain ⟨e, q, rfl⟩ : ∃ (e : Fin 250000) (q : Fin 3), i = ix2 e q := ⟨i 0, i 1, eq_ix2 i⟩
  exact shapeCast_dropLast_apply _ _ e q

theorem V_v2_fun (c : Dev nD) : (V m c main_v2 : S250000x5.Idx → Elt Ideal .f32)
    = fun i => m ((c : Thread nD τ).loc main_arg2) (ix3 (⟨(i 0).val, (i 0).isLt⟩ : Fin 250000) (⟨(i 1).val, (i 1).isLt⟩ : Fin 5) (0 : Fin 1)) := by
  rw [V_v2]
  funext i
  obtain ⟨e, q, rfl⟩ : ∃ (e : Fin 250000) (q : Fin 5), i = ix2 e q := ⟨i 0, i 1, eq_ix2 i⟩
  exact shapeCast_dropLast_apply _ _ e q

theorem V_v3_fun (c : Dev nD) : (V m c main_v3 : S250000x7.Idx → Elt Ideal .f32)
    = fun i => m ((c : Thread nD τ).loc main_arg3) (ix3 (⟨(i 0).val, (i 0).isLt⟩ : Fin 250000) (⟨(i 1).val, (i 1).isLt⟩ : Fin 7) (0 : Fin 1)) := by
  rw [V_v3]
  funext i
  obtain ⟨e, q, rfl⟩ : ∃ (e : Fin 250000) (q : Fin 7), i = ix2 e q := ⟨i 0, i 1, eq_ix2 i⟩
  exact shapeCast_dropLast_apply _ _ e q

/-- The gathered matrix at (e, f) is the table at (row e, 0, f). -/
theorem V_v11_fun (c : Dev nD) : (V m c main_v11 : S250000x256.Idx → Elt Ideal .f32)
    = fun i => m ((c : Thread nD τ).loc main_arg8)
        (ix3 (rowOf (N := 10000) (by decide) (nbrIdx (m ((c : Thread nD τ).loc main_arg10))) (⟨(i 0).val, (i 0).isLt⟩ : Fin 250000))
          (0 : Fin 1) (⟨(i 1).val, (i 1).isLt⟩ : Fin 256)) := by
  rw [V_v11]
  funext i
  obtain ⟨e, f, rfl⟩ : ∃ (e : Fin 250000) (f : Fin 256), i = ix2 e f := ⟨i 0, i 1, eq_ix2 i⟩
  have hd : gather_S10000x256_S250000x1_S250000x256_1_0_n_n_0_1_1256
      = Cert.Lib.RowOps.gatherRows2 10000 250000 256 gather_S10000x256_S250000x1_S250000x256_1_0_n_n_0_1_1256.wf := rfl
  rw [hd]
  refine (Cert.Lib.RowOps.gatherRows2_apply (by decide) _ _ _ e f).trans ?_
  exact shapeCast_dropMid_apply _ _ _ f

/-! ## The edge message of the arrays the call finds is the message of the arguments -/

theorem msg_args_l0 (c : Dev nD) :
    edgeMsg (α := Elt Ideal .f32) (E := 250000) (M := 1) (K := 256) (KK := 256) (Nat.le_refl 256) (V m c main_v0) (V m c main_arg4) (V m c main_v11)
      = argMsg (α := Elt Ideal .f32) (E := 250000) (M := 1) (K := 256) (KK := 256) (N := 10000) (Nat.le_refl 256) (by decide)
          (m ((c : Thread nD τ).loc main_arg0)) (m ((c : Thread nD τ).loc main_arg4)) (m ((c : Thread nD τ).loc main_arg8))
          (nbrIdx (m ((c : Thread nD τ).loc main_arg10))) := by
  unfold argMsg
  rw [V_v0_fun, V_main_arg4, V_v11_fun]
  rfl

theorem msg_args_l1 (c : Dev nD) :
    edgeMsg (α := Elt Ideal .f32) (E := 250000) (M := 3) (K := 192) (KK := 256) (by decide : 192 ≤ 256) (V m c main_v1) (V m c main_arg5) (V m c main_v11)
      = argMsg (α := Elt Ideal .f32) (E := 250000) (M := 3) (K := 192) (KK := 256) (N := 10000) (by decide : 192 ≤ 256) (by decide)
          (m ((c : Thread nD τ).loc main_arg1)) (m ((c : Thread nD τ).loc main_arg5)) (m ((c : Thread nD τ).loc main_arg8))
          (nbrIdx (m ((c : Thread nD τ).loc main_arg10))) := by
  unfold argMsg
  rw [V_v1_fun, V_main_arg5, V_v11_fun]
  rfl

theorem msg_args_l2 (c : Dev nD) :
    edgeMsg (α := Elt Ideal .f32) (E := 250000) (M := 5) (K := 128) (KK := 256) (by decide : 128 ≤ 256) (V m c main_v2) (V m c main_arg6) (V m c main_v11)
      = argMsg (α := Elt Ideal .f32) (E := 250000) (M := 5) (K := 128) (KK := 256) (N := 10000) (by decide : 128 ≤ 256) (by decide)
          (m ((c : Thread nD τ).loc main_arg2)) (m ((c : Thread nD τ).loc main_arg6)) (m ((c : Thread nD τ).loc main_arg8))
          (nbrIdx (m ((c : Thread nD τ).loc main_arg10))) := by
  unfold argMsg
  rw [V_v2_fun, V_main_arg6, V_v11_fun]
  rfl

theorem msg_args_l3 (c : Dev nD) :
    edgeMsg (α := Elt Ideal .f32) (E := 250000) (M := 7) (K := 64) (KK := 256) (by decide : 64 ≤ 256) (V m c main_v3) (V m c main_arg7) (V m c main_v11)
      = argMsg (α := Elt Ideal .f32) (E := 250000) (M := 7) (K := 64) (KK := 256) (N := 10000) (by decide : 64 ≤ 256) (by decide)
          (m ((c : Thread nD τ).loc main_arg3)) (m ((c : Thread nD τ).loc main_arg7)) (m ((c : Thread nD τ).loc main_arg8))
          (nbrIdx (m ((c : Thread nD τ).loc main_arg10))) := by
  unfold argMsg
  rw [V_v3_fun, V_main_arg7, V_v11_fun]
  rfl

end Cert.KernelIdeal.HostGlue

end
-- ==== Proof.Results.lean ====
/-
  The kernel's program, run: its four results as functions of its arguments.

  After the pallas call the host adds, for each order l, every edge's message rows into the rows of a zero array
  [10000, 2l+1, k_l] named by the list of centres (a scatter-add; a number outside [0, 10000) drops its edge). The
  four message arrays are the edge messages of the arguments (the blocks written back by the 625 grid points cover
  them, and the arrays the call reads are the arguments re-laid and the gathered table rows), so each result is that
  scatter-add of the message of the arguments; the scatter-add itself is never opened. The arguments end unchanged.
-/
import proofs.«127102_j21474836480309_2_alg».proof.Proof.MsgArray0
import proofs.«127102_j21474836480309_2_alg».proof.Proof.MsgArray1
import proofs.«127102_j21474836480309_2_alg».proof.Proof.MsgArray2
import proofs.«127102_j21474836480309_2_alg».proof.Proof.MsgArray3
import proofs.«127102_j21474836480309_2_alg».proof.Proof.HostGlue

set_option maxRecDepth 16384

noncomputable section

namespace Cert.KernelIdeal.Results

open Idealize.ShloMosaic Idealize.ShloMosaic.TcCoe Idealize.ShloMosaic.ValueIdx Idealize.SL.Sem Idealize.ShloMosaic.StableHlo
open Cert.KernelIdeal Cert.KernelIdeal.Gen Cert.KernelIdeal.Messages Cert.KernelIdeal.HostGlue Cert.EdgeMessage

variable (m : (ℓ : Loc nD τ sig) → Buf (Elt Ideal) ℓ)

/-- Result 0: the messages of order 0 of the arguments, added into zero rows by centre. -/
abbrev res_l0 (c : Dev nD) : S10000x1x256.Idx → Elt Ideal .f32 :=
  Host.scatterAdd scatter_S10000x1x256_S250000x1_S250000x1x256_12_0_0_1
    (broadcastInDim S10000x1x256 ![] bcast_S_S10000x1x256 (constant (F := Ideal) S_ .f32 0x00000000#32))
    (broadcastInDim S250000x1 ![0] bcast_S250000_S250000x1_0 (m ((c : Thread nD τ).loc main_arg9)))
    (argMsg (α := Elt Ideal .f32) (E := 250000) (M := 1) (K := 256) (KK := 256) (N := 10000) (Nat.le_refl 256) (by decide)
      (m ((c : Thread nD τ).loc main_arg0)) (m ((c : Thread nD τ).loc main_arg4)) (m ((c : Thread nD τ).loc main_arg8))
      (nbrIdx (m ((c : Thread nD τ).loc main_arg10))))

/-- What the host lines after the call leave in result 0's buffer. -/
theorem tail_l0 (c : Dev nD) : Pipeline.afterTail₀ cfgs (dats m) 0 (V0 m) [hostOps1] c main_v15 = res_l0 m c := by
  unfold Pipeline.afterTail₀
  show StableHlo.after hostOps1 _ (Proc.devRef .tc main_v15) = _
  after_results
  refine congrArg₂ (Host.scatterAdd scatter_S10000x1x256_S250000x1_S250000x1x256_12_0_0_1
      (broadcastInDim S10000x1x256 ![] bcast_S_S10000x1x256 (constant (F := Ideal) S_ .f32 0x00000000#32)))
    (congrArg (broadcastInDim S250000x1 ![0] bcast_S250000_S250000x1_0)
      ((Pipeline.withArrays_of_ne _ c (V0 m c) _ main_arg9 (by exact (by decide : ∀ w, Pipeline.arrRef spec0 w ≠ main_arg9))).trans
        (V_main_arg9 m c)))
    (((Pipeline.withArrays_arr spec0 launch0.win.arr_inj c (V0 m c) _ 9).trans (final_l0 m c)).trans (msg_args_l0 m c))

/-- Result 1: the messages of order 1 of the arguments, added into zero rows by centre. -/
abbrev res_l1 (c : Dev nD) : S10000x3x192.Idx → Elt Ideal .f32 :=
  Host.scatterAdd scatter_S10000x3x192_S250000x1_S250000x3x192_12_0_0_1
    (broadcastInDim S10000x3x192 ![] bcast_S_S10000x3x192 (constant (F := Ideal) S_ .f32 0x00000000#32))
    (broadcastInDim S250000x1 ![0] bcast_S250000_S250000x1_0 (m ((c : Thread nD τ).loc main_arg9)))
    (argMsg (α := Elt Ideal .f32) (E := 250000) (M := 3) (K := 192) (KK := 256) (N := 10000) (by decide : 192 ≤ 256) (by decide)
      (m ((c : Thread nD τ).loc main_arg1)) (m ((c : Thread nD τ).loc main_arg5)) (m ((c : Thread nD τ).loc main_arg8))
      (nbrIdx (m ((c : Thread nD τ).loc main_arg10))))

/-- What the host lines after the call leave in result 1's buffer. -/
theorem tail_l1 (c : Dev nD) : Pipeline.afterTail₀ cfgs (dats m) 0 (V0 m) [hostOps1] c main_v18 = res_l1 m c := by
  unfold Pipeline.afterTail₀
  show StableHlo.after hostOps1 _ (Proc.devRef .tc main_v18) = _
  after_results
  refine congrArg₂ (Host.scatterAdd scatter_S10000x3x192_S250000x1_S250000x3x192_12_0_0_1
      (broadcastInDim S10000x3x192 ![] bcast_S_S10000x3x192 (constant (F := Ideal) S_ .f32 0x00000000#32)))
    (congrArg (broadcastInDim S250000x1 ![0] bcast_S250000_S250000x1_0)
      ((Pipeline.withArrays_of_ne _ c (V0 m c) _ main_arg9 (by exact (by decide : ∀ w, Pipeline.arrRef spec0 w ≠ main_arg9))).trans
        (V_main_arg9 m c)))
    (((Pipeline.withArrays_arr spec0 launch0.win.arr_inj c (V0 m c) _ 10).trans (final_l1 m c)).trans (msg_args_l1 m c))

/-- Result 2: the messages of order 2 of the arguments, added into zero rows by centre. -/
abbrev res_l2 (c : Dev nD) : S10000x5x128.Idx → Elt Ideal .f32 :=
  Host.scatterAdd scatter_S10000x5x128_S250000x1_S250000x5x128_12_0_0_1
    (broadcastInDim S10000x5x128 ![] bcast_S_S10000x5x128 (constant (F := Ideal) S_ .f32 0x00000000#32))
    (broadcastInDim S250000x1 ![0] bcast_S250000_S250000x1_0 (m ((c : Thread nD τ).loc main_arg9)))
    (argMsg (α := Elt Ideal .f32) (E := 250000) (M := 5) (K := 128) (KK := 256) (N := 10000) (by decide : 128 ≤ 256) (by decide)
      (m ((c : Thread nD τ).loc main_arg2)) (m ((c : Thread nD τ).loc main_arg6)) (m ((c : Thread nD τ).loc main_arg8))
      (nbrIdx (m ((c : Thread nD τ).loc main_arg10))))

/-- What the host lines after the call leave in result 2's buffer. -/
theorem tail_l2 (c : Dev nD) : Pipeline.afterTail₀ cfgs (dats m) 0 (V0 m) [hostOps1] c main_v21 = res_l2 m c := by
  unfold Pipeline.afterTail₀
  show StableHlo.after hostOps1 _ (Proc.devRef .tc main_v21) = _
  after_results
  refine congrArg₂ (Host.scatterAdd scatter_S10000x5x128_S250000x1_S250000x5x128_12_0_0_1
      (broadcastInDim S10000x5x128 ![] bcast_S_S10000x5x128 (constant (F := Ideal) S_ .f32 0x00000000#32)))
    (congrArg (broadcastInDim S250000x1 ![0] bcast_S250000_S250000x1_0)
      ((Pipeline.withArrays_of_ne _ c (V0 m c) _ main_arg9 (by exact (by decide : ∀ w, Pipeline.arrRef spec0 w ≠ main_arg9))).trans
        (V_main_arg9 m c)))
    (((Pipeline.withArrays_arr spec0 launch0.win.arr_inj c (V0 m c) _ 11).trans (final_l2 m c)).trans (msg_args_l2 m c))

/-- Result 3: the messages of order 3 of the arguments, added into zero rows by centre. -/
abbrev res_l3 (c : Dev nD) : S10000x7x64.Idx → Elt Ideal .f32 :=
  Host.scatterAdd scatter_S10000x7x64_S250000x1_S250000x7x64_12_0_0_1
    (broadcastInDim S10000x7x64 ![] bcast_S_S10000x7x64 (constant (F := Ideal) S_ .f32 0x00000000#32))
    (broadcastInDim S250000x1 ![0] bcast_S250000_S250000x1_0 (m ((c : Thread nD τ).loc main_arg9)))
    (argMsg (α := Elt Ideal .f32) (E := 250000) (M := 7) (K := 64) (KK := 256) (N := 10000) (by decide : 64 ≤ 256) (by decide)
      (m ((c : Thread nD τ).loc main_arg3)) (m ((c : Thread nD τ).loc main_arg7)) (m ((c : Thread nD τ).loc main_arg8))
      (nbrIdx (m ((c : Thread nD τ).loc main_arg10))))

/-- What the host lines after the call leave in result 3's buffer. -/
theorem tail_l3 (c : Dev nD) : Pipeline.afterTail₀ cfgs (dats m) 0 (V0 m) [hostOps1] c main_v24 = res_l3 m c := by
  unfold Pipeline.afterTail₀
  show StableHlo.after hostOps1 _ (Proc.devRef .tc main_v24) = _
  after_results
  refine congrArg₂ (Host.scatterAdd scatter_S10000x7x64_S250000x1_S250000x7x64_12_0_0_1
      (broadcastInDim S10000x7x64 ![] bcast_S_S10000x7x64 (constant (F := Ideal) S_ .f32 0x00000000#32)))
    (congrArg (broadcastInDim S250000x1 ![0] bcast_S250000_S250000x1_0)
      ((Pipeline.withArrays_of_ne _ c (V0 m c) _ main_arg9 (by exact (by decide : ∀ w, Pipeline.arrRef spec0 w ≠ main_arg9))).trans
        (V_main_arg9 m c)))
    (((Pipeline.withArrays_arr spec0 launch0.win.arr_inj c (V0 m c) _ 12).trans (final_l3 m c)).trans (msg_args_l3 m c))

/-- Every weakly fair execution of the kernel's program terminates with the four results at the scatter-adds of the
    messages of the arguments, and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15) = res_l0 m c
      ∧ r.2.mem ((c.tc : Thread nD τ).loc main_v18) = res_l1 m c
      ∧ r.2.mem ((c.tc : Thread nD τ).loc main_v21) = res_l2 m c
      ∧ r.2.mem ((c.tc : Thread nD τ).loc main_v24) = res_l3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨((h c).2 main_v15 (Pipeline.mem_restRefs_of main_v15 (by decide) (by decide))).trans (tail_l0 m c),
     ((h c).2 main_v18 (Pipeline.mem_restRefs_of main_v18 (by decide) (by decide))).trans (tail_l1 m c),
     ((h c).2 main_v21 (Pipeline.mem_restRefs_of main_v21 (by decide) (by decide))).trans (tail_l2 m c),
     ((h c).2 main_v24 (Pipeline.mem_restRefs_of main_v24 (by decide) (by decide))).trans (tail_l3 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).1 4).trans (((dats m 0 c).arrAt_in 4 rfl _).trans ((A_eq m c 4).trans (V_main_arg4 m c))),
     ((h c).1 5).trans (((dats m 0 c).arrAt_in 5 rfl _).trans ((A_eq m c 5).trans (V_main_arg5 m c))),
     ((h c).1 6).trans (((dats m 0 c).arrAt_in 6 rfl _).trans ((A_eq m c 6).trans (V_main_arg6 m c))),
     ((h c).1 7).trans (((dats m 0 c).arrAt_in 7 rfl _).trans ((A_eq m c 7).trans (V_main_arg7 m c))),
     ((h c).2 main_arg8 (Pipeline.mem_restRefs_of main_arg8 (by decide) (by decide))).trans (W_main_arg8 m (dats m) c),
     ((h c).2 main_arg9 (Pipeline.mem_restRefs_of main_arg9 (by decide) (by decide))).trans (W_main_arg9 m (dats m) c),
     ((h c).2 main_arg10 (Pipeline.mem_restRefs_of main_arg10 (by decide) (by decide))).trans (W_main_arg10 m (dats m) c)⟩)
    (run_main m ρ)

end Cert.KernelIdeal.Results

end
-- ==== Proof.RefMessages.lean ====
/-
  The reference's four message arrays, read at an index.

  The reference normalises the list of neighbour numbers, gathers one one-row matrix [1, 256] of the feature table
  per edge, and for each order l multiplies, entry by entry over [250000, 2l+1, k_l], the angular array repeated
  along the channels, the radial matrix repeated along the angular components, and the leading k_l channels of the
  gathered rows repeated along the angular components: (sh (e, m, 0) · rb (e, k)) · table (row e, 0, k). That is the
  message of its arguments; what it then does with the array (a scatter-add over the list of centres) is not opened.
-/
import proofs.«127102_j21474836480309_2_alg».proof.Proof.Gen.ReferenceIdeal.Read
import proofs.«127102_j21474836480309_2_alg».proof.Proof.LibBlockLayout
import proofs.«127102_j21474836480309_2_alg».proof.Proof.EdgeMessage

noncomputable section

namespace Cert.ReferenceIdeal.Messages

open Idealize.ShloMosaic Idealize.ShloMosaic.TcCoe Idealize.ShloMosaic.ValueIdx Idealize.SL.Sem
open Cert.ReferenceIdeal Cert.ReferenceIdeal.Gen Cert.ReferenceIdeal.Read Cert.Lib.BlockLayout Cert.EdgeMessage

/-- The gathered stack at (e, u, f) is the table at (row e, u, f). -/
theorem gathered_apply (x8 : (⟨S10000x1x256, .f32⟩ : BufTy).Contents (Elt Ideal)) (x10 : (⟨S250000, .i32⟩ : BufTy).Contents (Elt Ideal)) (e : Fin 250000) (u : Fin 1) (f : Fin 256) :
    val_main_v6 (F := Ideal) x8 x10 (ix3 e u f)
      = x8 (ix3 (rowOf (N := 10000) (w := 32) (by decide) (val_main_v5 (F := Ideal) x10) e) u f) := by
  unfold val_main_v6
  have hd : gather_S10000x1x256_S250000x1_S250000x1x256_12_0_n_n_0_1_11256
      = gatherRows3 10000 250000 256 gather_S10000x1x256_S250000x1_S250000x1x256_12_0_n_n_0_1_11256.wf := rfl
  rw [hd]
  exact gatherRows3_apply (by decide) _ _ _ e u f

/-! ## l = 0 -/

theorem idx_v8 (e : Fin 250000) (q : Fin 1) (k : Fin 256) : idx_main_v8 (ix3 e q k) = ix3 e (0 : Fin 1) (0 : Fin 1) :=
  funext fun a => by match a with | ⟨0, _⟩ => rfl | ⟨1, _⟩ => rfl | ⟨2, _⟩ => rfl
theorem idx_v7 (e : Fin 250000) (q : Fin 1) (k : Fin 256) : idx_main_v7 (ix3 e q k) = ix2 e k :=
  funext fun a => by match a with | ⟨0, _⟩ => rfl | ⟨1, _⟩ => rfl

theorem msg_l0 (x0 : (⟨S250000x1x1, .f32⟩ : BufTy).Contents (Elt Ideal)) (x4 : (⟨S250000x256, .f32⟩ : BufTy).Contents (Elt Ideal)) (x8 : (⟨S10000x1x256, .f32⟩ : BufTy).Contents (Elt Ideal)) (x10 : (⟨S250000, .i32⟩ : BufTy).Contents (Elt Ideal)) :
    val_main_v10 (F := Ideal) x0 x4 x8 x10
      = argMsg (α := Elt Ideal .f32) (E := 250000) (M := 1) (K := 256) (KK := 256) (N := 10000) (w := 32) (Nat.le_refl 256) (by decide)
          x0 x4 x8 (val_main_v5 (F := Ideal) x10) := by
  funext i
  obtain ⟨e, q, k, rfl⟩ : ∃ (e : Fin 250000) (q : Fin 1) (k : Fin 256), i = ix3 e q k := ⟨i 0, i 1, i 2, eq_ix3 i⟩
  obtain rfl : q = 0 := Subsingleton.elim _ _
  rw [argMsg_apply, val_main_v10_apply, val_main_v9_apply, val_main_v8_apply, idx_v8, val_main_v7_apply, idx_v7, gathered_apply]
  rfl

/-! ## l = 1 -/

theorem idx_v15 (e : Fin 250000) (q : Fin 3) (k : Fin 192) : idx_main_v15 (ix3 e q k) = ix3 e q (0 : Fin 1) :=
  funext fun a => by match a with | ⟨0, _⟩ => rfl | ⟨1, _⟩ => rfl | ⟨2, _⟩ => rfl
theorem idx_v16 (e : Fin 250000) (q : Fin 3) (k : Fin 192) : idx_main_v16 (ix3 e q k) = ix3 e (0 : Fin 1) k :=
  funext fun a => by match a with | ⟨0, _⟩ => rfl | ⟨1, _⟩ => rfl | ⟨2, _⟩ => rfl
theorem idx_v14 (e : Fin 250000) (k : Fin 192) : idx_main_v14 (ix3 e (0 : Fin 1) k) = ix2 e k :=
  funext fun a => by match a with | ⟨0, _⟩ => rfl | ⟨1, _⟩ => rfl
theorem idx_v19 (e : Fin 250000) (q : Fin 3) (k : Fin 192) : idx_main_v19 (ix3 e q k) = ix3 e (0 : Fin 1) k :=
  funext fun a => by match a with | ⟨0, _⟩ => rfl | ⟨1, _⟩ => rfl | ⟨2, _⟩ => rfl
theorem idx_v18 (e : Fin 250000) (k : Fin 192) :
    idx_main_v18 (ix3 e (0 : Fin 1) k) = ix3 e (0 : Fin 1) (⟨k.val, Nat.lt_of_lt_of_le k.isLt (by decide : 192 ≤ 256)⟩ : Fin 256) :=
  funext fun a => by match a with | ⟨0, _⟩ => rfl | ⟨1, _⟩ => rfl | ⟨2, _⟩ => rfl

theorem msg_l1 (x1 : (⟨S250000x3x1, .f32⟩ : BufTy).Contents (Elt Ideal)) (x5 : (⟨S250000x192, .f32⟩ : BufTy).Contents (Elt Ideal)) (x8 : (⟨S10000x1x256, .f32⟩ : BufTy).Contents (Elt Ideal)) (x10 : (⟨S250000, .i32⟩ : BufTy).Contents (Elt Ideal)) :
    val_main_v20 (F := Ideal) x1 x5 x8 x10
      = argMsg (α := Elt Ideal .f32) (E := 250000) (M := 3) (K := 192) (KK := 256) (N := 10000) (w := 32) (by decide : 192 ≤ 256) (by decide)
          x1 x5 x8 (val_main_v5 (F := Ideal) x10) := by
  funext i
  obtain ⟨e, q, k, rfl⟩ : ∃ (e : Fin 250000) (q : Fin 3) (k : Fin 192), i = ix3 e q k := ⟨i 0, i 1, i 2, eq_ix3 i⟩
  rw [argMsg_apply, val_main_v20_apply, val_main_v17_apply, val_main_v15_apply, idx_v15,
    val_main_v16_apply, idx_v16, val_main_v14_apply, idx_v14,
    val_main_v19_apply, idx_v19, val_main_v18_apply, idx_v18, gathered_apply]
  rfl

/-! ## l = 2 -/

theorem idx_v25 (e : Fin 250000) (q : Fin 5) (k : Fin 128) : idx_main_v25 (ix3 e q k) = ix3 e q (0 : Fin 1) :=
  funext fun a => by match a with | ⟨0, _⟩ => rfl | ⟨1, _⟩ => rfl | ⟨2, _⟩ => rfl
theorem idx_v26 (e : Fin 250000) (q : Fin 5) (k : Fin 128) : idx_main_v26 (ix3 e q k) = ix3 e (0 : Fin 1) k :=
  funext fun a => by match a with | ⟨0, _⟩ => rfl | ⟨1, _⟩ => rfl | ⟨2, _⟩ => rfl
theorem idx_v24 (e : Fin 250000) (k : Fin 128) : idx_main_v24 (ix3 e (0 : Fin 1) k) = ix2 e k :=
  funext fun a => by match a with | ⟨0, _⟩ => rfl | ⟨1, _⟩ => rfl
theorem idx_v29 (e : Fin 250000) (q : Fin 5) (k : Fin 128) : idx_main_v29 (ix3 e q k) = ix3 e (0 : Fin 1) k :=
  funext fun a => by match a with | ⟨0, _⟩ => rfl | ⟨1, _⟩ => rfl | ⟨2, _⟩ => rfl
theorem idx_v28 (e : Fin 250000) (k : Fin 128) :
    idx_main_v28 (ix3 e (0 : Fin 1) k) = ix3 e (0 : Fin 1) (⟨k.val, Nat.lt_of_lt_of_le k.isLt (by decide : 128 ≤ 256)⟩ : Fin 256) :=
  funext fun a => by match a with | ⟨0, _⟩ => rfl | ⟨1, _⟩ => rfl | ⟨2, _⟩ => rfl

theorem msg_l2 (x2 : (⟨S250000x5x1, .f32⟩ : BufTy).Contents (Elt Ideal)) (x6 : (⟨S250000x128, .f32⟩ : BufTy).Contents (Elt Ideal)) (x8 : (⟨S10000x1x256, .f32⟩ : BufTy).Contents (Elt Ideal)) (x10 : (⟨S250000, .i32⟩ : BufTy).Contents (Elt Ideal)) :
    val_main_v30 (F := Ideal) x2 x6 x8 x10
      = argMsg (α := Elt Ideal .f32) (E := 250000) (M := 5) (K := 128) (KK := 256) (N := 10000) (w := 32) (by decide : 128 ≤ 256) (by decide)
          x2 x6 x8 (val_main_v5 (F := Ideal) x10) := by
  funext i
  obtain ⟨e, q, k, rfl⟩ : ∃ (e : Fin 250000) (q : Fin 5) (k : Fin 128), i = ix3 e q k := ⟨i 0, i 1, i 2, eq_ix3 i⟩
  rw [argMsg_apply, val_main_v30_apply, val_main_v27_apply, val_main_v25_apply, idx_v25,
    val_main_v26_apply, idx_v26, val_main_v24_apply, idx_v24,
    val_main_v29_apply, idx_v29, val_main_v28_apply, idx_v28, gathered_apply]
  rfl

/-! ## l = 3 -/

theorem idx_v35 (e : Fin 250000) (q : Fin 7) (k : Fin 64) : idx_main_v35 (ix3 e q k) = ix3 e q (0 : Fin 1) :=
  funext fun a => by match a with | ⟨0, _⟩ => rfl | ⟨1, _⟩ => rfl | ⟨2, _⟩ => rfl
theorem idx_v36 (e : Fin 250000) (q : Fin 7) (k : Fin 64) : idx_main_v36 (ix3 e q k) = ix3 e (0 : Fin 1) k :=
  funext fun a => by match a with | ⟨0, _⟩ => rfl | ⟨1, _⟩ => rfl | ⟨2, _⟩ => rfl
theorem idx_v34 (e : Fin 250000) (k : Fin 64) : idx_main_v34 (ix3 e (0 : Fin 1) k) = ix2 e k :=
  funext fun a => by match a with | ⟨0, _⟩ => rfl | ⟨1, _⟩ => rfl
theorem idx_v39 (e : Fin 250000) (q : Fin 7) (k : Fin 64) : idx_main_v39 (ix3 e q k) = ix3 e (0 : Fin 1) k :=
  funext fun a => by match a with | ⟨0, _⟩ => rfl | ⟨1, _⟩ => rfl | ⟨2, _⟩ => rfl
theorem idx_v38 (e : Fin 250000) (k : Fin 64) :
    idx_main_v38 (ix3 e (0 : Fin 1) k) = ix3 e (0 : Fin 1) (⟨k.val, Nat.lt_of_lt_of_le k.isLt (by decide : 64 ≤ 256)⟩ : Fin 256) :=
  funext fun a => by match a with | ⟨0, _⟩ => rfl | ⟨1, _⟩ => rfl | ⟨2, _⟩ => rfl

theorem msg_l3 (x3 : (⟨S250000x7x1, .f32⟩ : BufTy).Contents (Elt Ideal)) (x7 : (⟨S250000x64, .f32⟩ : BufTy).Contents (Elt Ideal)) (x8 : (⟨S10000x1x256, .f32⟩ : BufTy).Contents (Elt Ideal)) (x10 : (⟨S250000, .i32⟩ : BufTy).Contents (Elt Ideal)) :
    val_main_v40 (F := Ideal) x3 x7 x8 x10
      = argMsg (α := Elt Ideal .f32) (E := 250000) (M := 7) (K := 64) (KK := 256) (N := 10000) (w := 32) (by decide : 64 ≤ 256) (by decide)
          x3 x7 x8 (val_main_v5 (F := Ideal) x10) := by
  funext i
  obtain ⟨e, q, k, rfl⟩ : ∃ (e : Fin 250000) (q : Fin 7) (k : Fin 64), i = ix3 e q k := ⟨i 0, i 1, i 2, eq_ix3 i⟩
  rw [argMsg_apply, val_main_v40_apply, val_main_v37_apply, val_main_v35_apply, idx_v35,
    val_main_v36_apply, idx_v36, val_main_v34_apply, idx_v34,
    val_main_v39_apply, idx_v39, val_main_v38_apply, idx_v38, gathered_apply]
  rfl

end Cert.ReferenceIdeal.Messages

end
-- ==== Proof.lean ====
/-
  Equivalence, over the extended reals, of a fused Pallas kernel for equivariant message passing and its jnp
  reference.

  For 250000 edges, each with a centre and a neighbour among 10000 atoms, and for each order l = 0 … 3 with 2l+1
  angular components and k_l = 256, 192, 128, 64 channels, both programs compute

      dens_l [n, m, k] = Σ over the edges e with centre n of (sh_l [e, m, 0] · rb_l [e, k]) · emb [nbr e, 0, k],

  where nbr e is the neighbour number of e with a negative number moved up by 10000 and then clamped into
  [0, 9999], and the sum is a scatter-add into zeros that drops an edge whose centre number is outside [0, 10000).

  The reference gathers the rows emb [nbr e] as [250000, 1, 256], forms the three-way product by broadcasts over
  [250000, 2l+1, k_l], and scatter-adds. The kernel's program first drops the unit axes of sh_l and emb, gathers the
  rows as a matrix [250000, 256], forms the four product arrays in ONE pallas call over 625 blocks of 400 edges, and
  then applies the same four scatter-adds.

  The two agree without any condition on the inputs: the product is taken in the same order on both sides, so no law
  of arithmetic is needed beyond reading both programs at an index, and the scatter-add, the same operation on both
  sides applied to equal arrays and equal lists of centres, is never opened. The proof has three parts:
    * each block a grid point writes back is the edge message of the three blocks it staged, and these blocks cover
      the message array, so after the call array l is the edge message of the three whole matrices the call reads
      (MsgArray0 … MsgArray3, over Payloads and BlockReads);
    * those matrices are the arguments re-laid and the gathered table rows, so array l is the message of the
      arguments (HostGlue), and the kernel's results are its scatter-adds (Results);
    * the reference's product arrays are the same message of the arguments (RefMessages).
  The kernel's idealization rewrote nothing, so it is the printed program read over the extended reals.
-/
import proofs.«127102_j21474836480309_2_alg».proof.Defs
import proofs.«127102_j21474836480309_2_alg».proof.Proof.Gen.Kernel
import proofs.«127102_j21474836480309_2_alg».proof.Proof.Gen.Kernel.Skeleton
import proofs.«127102_j21474836480309_2_alg».proof.Proof.Gen.Kernel.Launch
import proofs.«127102_j21474836480309_2_alg».proof.Proof.Gen.Kernel.Points
import proofs.«127102_j21474836480309_2_alg».proof.Proof.Gen.Kernel.Frame
import proofs.«127102_j21474836480309_2_alg».proof.Proof.Gen.KernelIdeal
import proofs.«127102_j21474836480309_2_alg».proof.Proof.Gen.KernelIdeal.Skeleton
import proofs.«127102_j21474836480309_2_alg».proof.Proof.Gen.KernelIdeal.Launch
import proofs.«127102_j21474836480309_2_alg».proof.Proof.Gen.KernelIdeal.Points
import proofs.«127102_j21474836480309_2_alg».proof.Proof.Gen.KernelIdeal.Frame
import proofs.«127102_j21474836480309_2_alg».proof.Proof.Gen.ReferenceIdeal
import proofs.«127102_j21474836480309_2_alg».proof.Proof.Gen.ReferenceIdeal.Run
import proofs.«127102_j21474836480309_2_alg».proof.Proof.Gen.ReferenceIdeal.Read
import proofs.«127102_j21474836480309_2_alg».proof.Proof.Gen.Pre_finite_inputs
import proofs.«127102_j21474836480309_2_alg».proof.Proof.Results
import proofs.«127102_j21474836480309_2_alg».proof.Proof.RefMessages
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does the same program over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the four results forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2)
    (Cert.ReferenceIdeal.Value.run (F := Ideal) m ρ)

/-- Both programs end with result l at the scatter-add, by centre, of the message of order l of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Results.res_l0 m c, fun c => Cert.KernelIdeal.Results.res_l1 m c,
    fun c => Cert.KernelIdeal.Results.res_l2 m c, fun c => Cert.KernelIdeal.Results.res_l3 m c,
    Cert.KernelIdeal.Results.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10⟩ := hagree c
  obtain ⟨h0, h1, h2, h3, hargs⟩ := h c
  refine ⟨h0.trans ?_, h1.trans ?_, h2.trans ?_, h3.trans ?_, hargs⟩
  · rw [Cert.ReferenceIdeal.Read.val_main_v13_eq]
    unfold Cert.ReferenceIdeal.Read.val_main_v13
    rw [Cert.ReferenceIdeal.Messages.msg_l0, a0, a4, a8, a9, a10]
    rfl
  · rw [Cert.ReferenceIdeal.Read.val_main_v23_eq]
    unfold Cert.ReferenceIdeal.Read.val_main_v23
    rw [Cert.ReferenceIdeal.Messages.msg_l1, a1, a5, a8, a9, a10]
    rfl
  · rw [Cert.ReferenceIdeal.Read.val_main_v33_eq]
    unfold Cert.ReferenceIdeal.Read.val_main_v33
    rw [Cert.ReferenceIdeal.Messages.msg_l2, a2, a6, a8, a9, a10]
    rfl
  · rw [Cert.ReferenceIdeal.Read.val_main_v43_eq]
    unfold Cert.ReferenceIdeal.Read.val_main_v43
    rw [Cert.ReferenceIdeal.Messages.msg_l3, a3, a7, a8, a9, a10]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
